-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x16x64 : Shape := ⟨3, ![10000, 16, 64]⟩
abbrev S_ : Shape := ⟨0, ![]⟩

class Facts : Prop where
  bcast_S_S10000x16x64 : S_.BroadcastsInDim S10000x16x64 (![] : Fin 0 → Fin S10000x16x64.rank)
  reducesTo_S10000x16x64_S_d0_1_2 : S10000x16x64.ReducesTo [0, 1, 2] S_
  h_S_ : 0 < S_.numel

variable [Facts]

def fn {F : FTy → Type} [FloatOps F] (main_arg0 : FVec F S10000x16x64 .f32) (main_arg1 : FVec F S10000x16x64 .f32) : IVec S_ 1 :=
  let main_v0 : FVec F S10000x16x64 .f32 := Host.absf main_arg0
  let main_cst : FVec F S_ .f32 := constant S_ .f32 0x7F800000#32
  let main_v1 : FVec F S10000x16x64 .f32 := broadcastInDim S10000x16x64 ![] bcast_S_S10000x16x64 main_cst
  let main_v2 : IVec S10000x16x64 1 := cmpf .olt main_v0 main_v1
  let main_c : IVec S_ 1 := constantI S_ 1 1#1
  let main_v3 : IVec S_ 1 := (fun x v => Host.reduce IntOp.andi x v reducesTo_S10000x16x64_S_d0_1_2 h_S_) main_v2 main_c
  let main_v4 : FVec F S10000x16x64 .f32 := Host.absf main_arg1
  let main_cst_0 : FVec F S_ .f32 := constant S_ .f32 0x7F800000#32
  let main_v5 : FVec F S10000x16x64 .f32 := broadcastInDim S10000x16x64 ![] bcast_S_S10000x16x64 main_cst_0
  let main_v6 : IVec S10000x16x64 1 := cmpf .olt main_v4 main_v5
  let main_c_1 : IVec S_ 1 := constantI S_ 1 1#1
  let main_v7 : IVec S_ 1 := (fun x v => Host.reduce IntOp.andi x v reducesTo_S10000x16x64_S_d0_1_2 h_S_) main_v6 main_c_1
  let main_v8 : IVec S_ 1 := andi main_v3 main_v7
  main_v8
-- ==== Kernel.lean ====
abbrev S10000x16x64 : Shape := ⟨3, ![10000, 16, 64]⟩
abbrev S10000x99x64 : Shape := ⟨3, ![10000, 99, 64]⟩
abbrev S250x16x64 : Shape := ⟨3, ![250, 16, 64]⟩
abbrev S250x99x64 : Shape := ⟨3, ![250, 99, 64]⟩
abbrev S250x1x64 : Shape := ⟨3, ![250, 1, 64]⟩
abbrev S250x64 : Shape := ⟨2, ![250, 64]⟩

abbrev nBuf : Space → Nat
  | .hbm => 3
  | .vmem => 6
  | .smem => 0
  | _ => 0

abbrev bufTy : (tb : Table) → Fin (tcTables nBuf tb) → BufTy
  | .hbm, ⟨0, _⟩ => ⟨S10000x16x64, .f32⟩
  | .hbm, ⟨1, _⟩ => ⟨S10000x16x64, .f32⟩
  | .hbm, ⟨2, _⟩ => ⟨S10000x99x64, .f32⟩
  | .local _ .vmem, ⟨0, _⟩ => ⟨S250x16x64, .f32⟩
  | .local _ .vmem, ⟨1, _⟩ => ⟨S250x16x64, .f32⟩
  | .local _ .vmem, ⟨2, _⟩ => ⟨S250x16x64, .f32⟩
  | .local _ .vmem, ⟨3, _⟩ => ⟨S250x16x64, .f32⟩
  | .local _ .vmem, ⟨4, _⟩ => ⟨S250x99x64, .f32⟩
  | .local _ .vmem, ⟨5, _⟩ => ⟨S250x99x64, .f32⟩
  | _, _ => ⟨S10000x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![40], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S250x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S250x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S250x99x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S250x16x64_S250x1x64_0_0_0 : ∀ a, (![0, 0, 0] : Fin 3 → Nat) a + S250x1x64.size a ≤ S250x16x64.size a
  h_S250x1x64 : 0 < S250x1x64.numel
  shapeCasts_S250x1x64_S250x64 : S250x1x64.ShapeCasts S250x64
  inb_S250x99x64_S250x1x64_0_0_0 : ∀ a, (![0, 0, 0] : Fin 3 → Nat) a + S250x1x64.size a ≤ S250x99x64.size a
  shapeCasts_S250x64_S250x1x64 : S250x64.ShapeCasts S250x1x64
  inb_S250x16x64_S250x1x64_0_1_0 : ∀ a, (![0, 1, 0] : Fin 3 → Nat) a + S250x1x64.size a ≤ S250x16x64.size a
  inb_S250x99x64_S250x1x64_0_1_0 : ∀ a, (![0, 1, 0] : Fin 3 → Nat) a + S250x1x64.size a ≤ S250x99x64.size a
  inb_S250x16x64_S250x1x64_0_2_0 : ∀ a, (![0, 2, 0] : Fin 3 → Nat) a + S250x1x64.size a ≤ S250x16x64.size a
  inb_S250x99x64_S250x1x64_0_2_0 : ∀ a, (![0, 2, 0] : Fin 3 → Nat) a + S250x1x64.size a ≤ S250x99x64.size a
  inb_S250x16x64_S250x1x64_0_3_0 : ∀ a, (![0, 3, 0] : Fin 3 → Nat) a + S250x1x64.size a ≤ S250x16x64.size a
  inb_S250x99x64_S250x1x64_0_3_0 : ∀ a, (![0, 3, 0] : Fin 3 → Nat) a + S250x1x64.size a ≤ S250x99x64.size a
  inb_S250x16x64_S250x1x64_0_4_0 : ∀ a, (![0, 4, 0] : Fin 3 → Nat) a + S250x1x64.size a ≤ S250x16x64.size a
  inb_S250x99x64_S250x1x64_0_4_0 : ∀ a, (![0, 4, 0] : Fin 3 → Nat) a + S250x1x64.size a ≤ S250x99x64.size a
  inb_S250x16x64_S250x1x64_0_5_0 : ∀ a, (![0, 5, 0] : Fin 3 → Nat) a + S250x1x64.size a ≤ S250x16x64.size a
  inb_S250x99x64_S250x1x64_0_5_0 : ∀ a, (![0, 5, 0] : Fin 3 → Nat) a + S250x1x64.size a ≤ S250x99x64.size a
  inb_S250x16x64_S250x1x64_0_6_0 : ∀ a, (![0, 6, 0] : Fin 3 → Nat) a + S250x1x64.size a ≤ S250x16x64.size a
  inb_S250x99x64_S250x1x64_0_6_0 : ∀ a, (![0, 6, 0] : Fin 3 → Nat) a + S250x1x64.size a ≤ S250x99x64.size a
  inb_S250x16x64_S250x1x64_0_7_0 : ∀ a, (![0, 7, 0] : Fin 3 → Nat) a + S250x1x64.size a ≤ S250x16x64.size a
  inb_S250x99x64_S250x1x64_0_7_0 : ∀ a, (![0, 7, 0] : Fin 3 → Nat) a + S250x1x64.size a ≤ S250x99x64.size a
  inb_S250x16x64_S250x1x64_0_8_0 : ∀ a, (![0, 8, 0] : Fin 3 → Nat) a + S250x1x64.size a ≤ S250x16x64.size a
  inb_S250x99x64_S250x1x64_0_8_0 : ∀ a, (![0, 8, 0] : Fin 3 → Nat) a + S250x1x64.size a ≤ S250x99x64.size a
  inb_S250x16x64_S250x1x64_0_9_0 : ∀ a, (![0, 9, 0] : Fin 3 → Nat) a + S250x1x64.size a ≤ S250x16x64.size a
  inb_S250x99x64_S250x1x64_0_9_0 : ∀ a, (![0, 9, 0] : Fin 3 → Nat) a + S250x1x64.size a ≤ S250x99x64.size a
  inb_S250x16x64_S250x1x64_0_10_0 : ∀ a, (![0, 10, 0] : Fin 3 → Nat) a + S250x1x64.size a ≤ S250x16x64.size a
  inb_S250x99x64_S250x1x64_0_10_0 : ∀ a, (![0, 10, 0] : Fin 3 → Nat) a + S250x1x64.size a ≤ S250x99x64.size a
  inb_S250x16x64_S250x1x64_0_11_0 : ∀ a, (![0, 11, 0] : Fin 3 → Nat) a + S250x1x64.size a ≤ S250x16x64.size a
  inb_S250x99x64_S250x1x64_0_11_0 : ∀ a, (![0, 11, 0] : Fin 3 → Nat) a + S250x1x64.size a ≤ S250x99x64.size a
  inb_S250x16x64_S250x1x64_0_12_0 : ∀ a, (![0, 12, 0] : Fin 3 → Nat) a + S250x1x64.size a ≤ S250x16x64.size a
  inb_S250x99x64_S250x1x64_0_12_0 : ∀ a, (![0, 12, 0] : Fin 3 → Nat) a + S250x1x64.size a ≤ S250x99x64.size a
  inb_S250x16x64_S250x1x64_0_13_0 : ∀ a, (![0, 13, 0] : Fin 3 → Nat) a + S250x1x64.size a ≤ S250x16x64.size a
  inb_S250x99x64_S250x1x64_0_13_0 : ∀ a, (![0, 13, 0] : Fin 3 → Nat) a + S250x1x64.size a ≤ S250x99x64.size a
  inb_S250x16x64_S250x1x64_0_14_0 : ∀ a, (![0, 14, 0] : Fin 3 → Nat) a + S250x1x64.size a ≤ S250x16x64.size a
  inb_S250x99x64_S250x1x64_0_14_0 : ∀ a, (![0, 14, 0] : Fin 3 → Nat) a + S250x1x64.size a ≤ S250x99x64.size a
  inb_S250x16x64_S250x1x64_0_15_0 : ∀ a, (![0, 15, 0] : Fin 3 → Nat) a + S250x1x64.size a ≤ S250x16x64.size a
  inb_S250x99x64_S250x1x64_0_15_0 : ∀ a, (![0, 15, 0] : Fin 3 → Nat) a + S250x1x64.size a ≤ S250x99x64.size a
  inb_S250x99x64_S250x1x64_0_16_0 : ∀ a, (![0, 16, 0] : Fin 3 → Nat) a + S250x1x64.size a ≤ S250x99x64.size a
  inb_S250x99x64_S250x1x64_0_17_0 : ∀ a, (![0, 17, 0] : Fin 3 → Nat) a + S250x1x64.size a ≤ S250x99x64.size a
  inb_S250x99x64_S250x1x64_0_18_0 : ∀ a, (![0, 18, 0] : Fin 3 → Nat) a + S250x1x64.size a ≤ S250x99x64.size a
  inb_S250x99x64_S250x1x64_0_19_0 : ∀ a, (![0, 19, 0] : Fin 3 → Nat) a + S250x1x64.size a ≤ S250x99x64.size a
  inb_S250x99x64_S250x1x64_0_20_0 : ∀ a, (![0, 20, 0] : Fin 3 → Nat) a + S250x1x64.size a ≤ S250x99x64.size a
  inb_S250x99x64_S250x1x64_0_21_0 : ∀ a, (![0, 21, 0] : Fin 3 → Nat) a + S250x1x64.size a ≤ S250x99x64.size a
  inb_S250x99x64_S250x1x64_0_22_0 : ∀ a, (![0, 22, 0] : Fin 3 → Nat) a + S250x1x64.size a ≤ S250x99x64.size a
  inb_S250x99x64_S250x1x64_0_23_0 : ∀ a, (![0, 23, 0] : Fin 3 → Nat) a + S250x1x64.size a ≤ S250x99x64.size a
  inb_S250x99x64_S250x1x64_0_24_0 : ∀ a, (![0, 24, 0] : Fin 3 → Nat) a + S250x1x64.size a ≤ S250x99x64.size a
  inb_S250x99x64_S250x1x64_0_25_0 : ∀ a, (![0, 25, 0] : Fin 3 → Nat) a + S250x1x64.size a ≤ S250x99x64.size a
  inb_S250x99x64_S250x1x64_0_26_0 : ∀ a, (![0, 26, 0] : Fin 3 → Nat) a + S250x1x64.size a ≤ S250x99x64.size a
  inb_S250x99x64_S250x1x64_0_27_0 : ∀ a, (![0, 27, 0] : Fin 3 → Nat) a + S250x1x64.size a ≤ S250x99x64.size a
  inb_S250x99x64_S250x1x64_0_28_0 : ∀ a, (![0, 28, 0] : Fin 3 → Nat) a + S250x1x64.size a ≤ S250x99x64.size a
  inb_S250x99x64_S250x1x64_0_29_0 : ∀ a, (![0, 29, 0] : Fin 3 → Nat) a + S250x1x64.size a ≤ S250x99x64.size a
  inb_S250x99x64_S250x1x64_0_30_0 : ∀ a, (![0, 30, 0] : Fin 3 → Nat) a + S250x1x64.size a ≤ S250x99x64.size a
  inb_S250x99x64_S250x1x64_0_31_0 : ∀ a, (![0, 31, 0] : Fin 3 → Nat) a + S250x1x64.size a ≤ S250x99x64.size a
  inb_S250x99x64_S250x1x64_0_32_0 : ∀ a, (![0, 32, 0] : Fin 3 → Nat) a + S250x1x64.size a ≤ S250x99x64.size a
  inb_S250x99x64_S250x1x64_0_33_0 : ∀ a, (![0, 33, 0] : Fin 3 → Nat) a + S250x1x64.size a ≤ S250x99x64.size a
  inb_S250x99x64_S250x1x64_0_34_0 : ∀ a, (![0, 34, 0] : Fin 3 → Nat) a + S250x1x64.size a ≤ S250x99x64.size a
  inb_S250x99x64_S250x1x64_0_35_0 : ∀ a, (![0, 35, 0] : Fin 3 → Nat) a + S250x1x64.size a ≤ S250x99x64.size a
  inb_S250x99x64_S250x1x64_0_36_0 : ∀ a, (![0, 36, 0] : Fin 3 → Nat) a + S250x1x64.size a ≤ S250x99x64.size a
  inb_S250x99x64_S250x1x64_0_37_0 : ∀ a, (![0, 37, 0] : Fin 3 → Nat) a + S250x1x64.size a ≤ S250x99x64.size a
  inb_S250x99x64_S250x1x64_0_38_0 : ∀ a, (![0, 38, 0] : Fin 3 → Nat) a + S250x1x64.size a ≤ S250x99x64.size a
  inb_S250x99x64_S250x1x64_0_39_0 : ∀ a, (![0, 39, 0] : Fin 3 → Nat) a + S250x1x64.size a ≤ S250x99x64.size a
  inb_S250x99x64_S250x1x64_0_40_0 : ∀ a, (![0, 40, 0] : Fin 3 → Nat) a + S250x1x64.size a ≤ S250x99x64.size a
  inb_S250x99x64_S250x1x64_0_41_0 : ∀ a, (![0, 41, 0] : Fin 3 → Nat) a + S250x1x64.size a ≤ S250x99x64.size a
  inb_S250x99x64_S250x1x64_0_42_0 : ∀ a, (![0, 42, 0] : Fin 3 → Nat) a + S250x1x64.size a ≤ S250x99x64.size a
  inb_S250x99x64_S250x1x64_0_43_0 : ∀ a, (![0, 43, 0] : Fin 3 → Nat) a + S250x1x64.size a ≤ S250x99x64.size a
  inb_S250x99x64_S250x1x64_0_44_0 : ∀ a, (![0, 44, 0] : Fin 3 → Nat) a + S250x1x64.size a ≤ S250x99x64.size a
  inb_S250x99x64_S250x1x64_0_45_0 : ∀ a, (![0, 45, 0] : Fin 3 → Nat) a + S250x1x64.size a ≤ S250x99x64.size a
  inb_S250x99x64_S250x1x64_0_46_0 : ∀ a, (![0, 46, 0] : Fin 3 → Nat) a + S250x1x64.size a ≤ S250x99x64.size a
  inb_S250x99x64_S250x1x64_0_47_0 : ∀ a, (![0, 47, 0] : Fin 3 → Nat) a + S250x1x64.size a ≤ S250x99x64.size a
  inb_S250x99x64_S250x1x64_0_48_0 : ∀ a, (![0, 48, 0] : Fin 3 → Nat) a + S250x1x64.size a ≤ S250x99x64.size a
  inb_S250x99x64_S250x1x64_0_49_0 : ∀ a, (![0, 49, 0] : Fin 3 → Nat) a + S250x1x64.size a ≤ S250x99x64.size a
  inb_S250x99x64_S250x1x64_0_50_0 : ∀ a, (![0, 50, 0] : Fin 3 → Nat) a + S250x1x64.size a ≤ S250x99x64.size a
  inb_S250x99x64_S250x1x64_0_51_0 : ∀ a, (![0, 51, 0] : Fin 3 → Nat) a + S250x1x64.size a ≤ S250x99x64.size a
  inb_S250x99x64_S250x1x64_0_52_0 : ∀ a, (![0, 52, 0] : Fin 3 → Nat) a + S250x1x64.size a ≤ S250x99x64.size a
  inb_S250x99x64_S250x1x64_0_53_0 : ∀ a, (![0, 53, 0] : Fin 3 → Nat) a + S250x1x64.size a ≤ S250x99x64.size a
  inb_S250x99x64_S250x1x64_0_54_0 : ∀ a, (![0, 54, 0] : Fin 3 → Nat) a + S250x1x64.size a ≤ S250x99x64.size a
  inb_S250x99x64_S250x1x64_0_55_0 : ∀ a, (![0, 55, 0] : Fin 3 → Nat) a + S250x1x64.size a ≤ S250x99x64.size a
  inb_S250x99x64_S250x1x64_0_56_0 : ∀ a, (![0, 56, 0] : Fin 3 → Nat) a + S250x1x64.size a ≤ S250x99x64.size a
  inb_S250x99x64_S250x1x64_0_57_0 : ∀ a, (![0, 57, 0] : Fin 3 → Nat) a + S250x1x64.size a ≤ S250x99x64.size a
  inb_S250x99x64_S250x1x64_0_58_0 : ∀ a, (![0, 58, 0] : Fin 3 → Nat) a + S250x1x64.size a ≤ S250x99x64.size a
  inb_S250x99x64_S250x1x64_0_59_0 : ∀ a, (![0, 59, 0] : Fin 3 → Nat) a + S250x1x64.size a ≤ S250x99x64.size a
  inb_S250x99x64_S250x1x64_0_60_0 : ∀ a, (![0, 60, 0] : Fin 3 → Nat) a + S250x1x64.size a ≤ S250x99x64.size a
  inb_S250x99x64_S250x1x64_0_61_0 : ∀ a, (![0, 61, 0] : Fin 3 → Nat) a + S250x1x64.size a ≤ S250x99x64.size a
  inb_S250x99x64_S250x1x64_0_62_0 : ∀ a, (![0, 62, 0] : Fin 3 → Nat) a + S250x1x64.size a ≤ S250x99x64.size a
  inb_S250x99x64_S250x1x64_0_63_0 : ∀ a, (![0, 63, 0] : Fin 3 → Nat) a + S250x1x64.size a ≤ S250x99x64.size a
  inb_S250x99x64_S250x1x64_0_64_0 : ∀ a, (![0, 64, 0] : Fin 3 → Nat) a + S250x1x64.size a ≤ S250x99x64.size a
  inb_S250x99x64_S250x1x64_0_65_0 : ∀ a, (![0, 65, 0] : Fin 3 → Nat) a + S250x1x64.size a ≤ S250x99x64.size a
  inb_S250x99x64_S250x1x64_0_66_0 : ∀ a, (![0, 66, 0] : Fin 3 → Nat) a + S250x1x64.size a ≤ S250x99x64.size a
  inb_S250x99x64_S250x1x64_0_67_0 : ∀ a, (![0, 67, 0] : Fin 3 → Nat) a + S250x1x64.size a ≤ S250x99x64.size a
  inb_S250x99x64_S250x1x64_0_68_0 : ∀ a, (![0, 68, 0] : Fin 3 → Nat) a + S250x1x64.size a ≤ S250x99x64.size a
  inb_S250x99x64_S250x1x64_0_69_0 : ∀ a, (![0, 69, 0] : Fin 3 → Nat) a + S250x1x64.size a ≤ S250x99x64.size a
  inb_S250x99x64_S250x1x64_0_70_0 : ∀ a, (![0, 70, 0] : Fin 3 → Nat) a + S250x1x64.size a ≤ S250x99x64.size a
  inb_S250x99x64_S250x1x64_0_71_0 : ∀ a, (![0, 71, 0] : Fin 3 → Nat) a + S250x1x64.size a ≤ S250x99x64.size a
  inb_S250x99x64_S250x1x64_0_72_0 : ∀ a, (![0, 72, 0] : Fin 3 → Nat) a + S250x1x64.size a ≤ S250x99x64.size a
  inb_S250x99x64_S250x1x64_0_73_0 : ∀ a, (![0, 73, 0] : Fin 3 → Nat) a + S250x1x64.size a ≤ S250x99x64.size a
  inb_S250x99x64_S250x1x64_0_74_0 : ∀ a, (![0, 74, 0] : Fin 3 → Nat) a + S250x1x64.size a ≤ S250x99x64.size a
  inb_S250x99x64_S250x1x64_0_75_0 : ∀ a, (![0, 75, 0] : Fin 3 → Nat) a + S250x1x64.size a ≤ S250x99x64.size a
  inb_S250x99x64_S250x1x64_0_76_0 : ∀ a, (![0, 76, 0] : Fin 3 → Nat) a + S250x1x64.size a ≤ S250x99x64.size a
  inb_S250x99x64_S250x1x64_0_77_0 : ∀ a, (![0, 77, 0] : Fin 3 → Nat) a + S250x1x64.size a ≤ S250x99x64.size a
  inb_S250x99x64_S250x1x64_0_78_0 : ∀ a, (![0, 78, 0] : Fin 3 → Nat) a + S250x1x64.size a ≤ S250x99x64.size a
  inb_S250x99x64_S250x1x64_0_79_0 : ∀ a, (![0, 79, 0] : Fin 3 → Nat) a + S250x1x64.size a ≤ S250x99x64.size a
  inb_S250x99x64_S250x1x64_0_80_0 : ∀ a, (![0, 80, 0] : Fin 3 → Nat) a + S250x1x64.size a ≤ S250x99x64.size a
  inb_S250x99x64_S250x1x64_0_81_0 : ∀ a, (![0, 81, 0] : Fin 3 → Nat) a + S250x1x64.size a ≤ S250x99x64.size a
  inb_S250x99x64_S250x1x64_0_82_0 : ∀ a, (![0, 82, 0] : Fin 3 → Nat) a + S250x1x64.size a ≤ S250x99x64.size a
  inb_S250x99x64_S250x1x64_0_83_0 : ∀ a, (![0, 83, 0] : Fin 3 → Nat) a + S250x1x64.size a ≤ S250x99x64.size a
  inb_S250x99x64_S250x1x64_0_84_0 : ∀ a, (![0, 84, 0] : Fin 3 → Nat) a + S250x1x64.size a ≤ S250x99x64.size a
  inb_S250x99x64_S250x1x64_0_85_0 : ∀ a, (![0, 85, 0] : Fin 3 → Nat) a + S250x1x64.size a ≤ S250x99x64.size a
  inb_S250x99x64_S250x1x64_0_86_0 : ∀ a, (![0, 86, 0] : Fin 3 → Nat) a + S250x1x64.size a ≤ S250x99x64.size a
  inb_S250x99x64_S250x1x64_0_87_0 : ∀ a, (![0, 87, 0] : Fin 3 → Nat) a + S250x1x64.size a ≤ S250x99x64.size a
  inb_S250x99x64_S250x1x64_0_88_0 : ∀ a, (![0, 88, 0] : Fin 3 → Nat) a + S250x1x64.size a ≤ S250x99x64.size a
  inb_S250x99x64_S250x1x64_0_89_0 : ∀ a, (![0, 89, 0] : Fin 3 → Nat) a + S250x1x64.size a ≤ S250x99x64.size a
  inb_S250x99x64_S250x1x64_0_90_0 : ∀ a, (![0, 90, 0] : Fin 3 → Nat) a + S250x1x64.size a ≤ S250x99x64.size a
  inb_S250x99x64_S250x1x64_0_91_0 : ∀ a, (![0, 91, 0] : Fin 3 → Nat) a + S250x1x64.size a ≤ S250x99x64.size a
  inb_S250x99x64_S250x1x64_0_92_0 : ∀ a, (![0, 92, 0] : Fin 3 → Nat) a + S250x1x64.size a ≤ S250x99x64.size a
  inb_S250x99x64_S250x1x64_0_93_0 : ∀ a, (![0, 93, 0] : Fin 3 → Nat) a + S250x1x64.size a ≤ S250x99x64.size a
  inb_S250x99x64_S250x1x64_0_94_0 : ∀ a, (![0, 94, 0] : Fin 3 → Nat) a + S250x1x64.size a ≤ S250x99x64.size a
  inb_S250x99x64_S250x1x64_0_95_0 : ∀ a, (![0, 95, 0] : Fin 3 → Nat) a + S250x1x64.size a ≤ S250x99x64.size a
  inb_S250x99x64_S250x1x64_0_96_0 : ∀ a, (![0, 96, 0] : Fin 3 → Nat) a + S250x1x64.size a ≤ S250x99x64.size a
  inb_S250x99x64_S250x1x64_0_97_0 : ∀ a, (![0, 97, 0] : Fin 3 → Nat) a + S250x1x64.size a ≤ S250x99x64.size a
  inb_S250x99x64_S250x1x64_0_98_0 : ∀ a, (![0, 98, 0] : Fin 3 → Nat) a + S250x1x64.size a ≤ S250x99x64.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S250x16x64.size a ≤ S10000x16x64.size a
  hwx0_0 : ∀ i : grid0.Coords, EltTy.bits .f32 = 32 ∨ (Rect.block (s := S10000x16x64) S250x16x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S250x16x64.size a ≤ S10000x16x64.size a
  hwx0_1 : ∀ i : grid0.Coords, EltTy.bits .f32 = 32 ∨ (Rect.block (s := S10000x16x64) S250x16x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S250x99x64.size a ≤ S10000x99x64.size a
  hwx0_2 : ∀ i : grid0.Coords, EltTy.bits .f32 = 32 ∨ (Rect.block (s := S10000x99x64) S250x99x64.size (cc0_transform_2 i) (hinb0_2 i)).WholeWords (EltTy.packing .f32)

variable [Facts₀]

abbrev win0_0 : Pipeline.Window sig grid0 :=
  Pipeline.Window.ofSpec (Memref.whole main_arg0) S250x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S250x16x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S250x99x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x16x64 : Shape := ⟨3, ![10000, 16, 64]⟩
abbrev S353 : Shape := ⟨1, ![353]⟩
abbrev S_ : Shape := ⟨0, ![]⟩
abbrev S353x1 : Shape := ⟨2, ![353, 1]⟩
abbrev S10000x353x64 : Shape := ⟨3, ![10000, 353, 64]⟩
abbrev S1x353x1 : Shape := ⟨3, ![1, 353, 1]⟩
abbrev S10000x99x64 : Shape := ⟨3, ![10000, 99, 64]⟩

abbrev nBuf : Space → Nat
  | .hbm => 33
  | .vmem => 0
  | .smem => 0
  | _ => 0

abbrev bufTy : (tb : Table) → Fin (tcTables nBuf tb) → BufTy
  | .hbm, ⟨0, _⟩ => ⟨S10000x16x64, .f32⟩
  | .hbm, ⟨1, _⟩ => ⟨S10000x16x64, .f32⟩
  | .hbm, ⟨2, _⟩ => ⟨S353, .i32⟩
  | .hbm, ⟨3, _⟩ => ⟨S353, .i1⟩
  | .hbm, ⟨4, _⟩ => ⟨S353, .f32⟩
  | .hbm, ⟨5, _⟩ => ⟨S353, .i32⟩
  | .hbm, ⟨6, _⟩ => ⟨S353, .i1⟩
  | .hbm, ⟨7, _⟩ => ⟨S353, .i32⟩
  | .hbm, ⟨8, _⟩ => ⟨S353, .i1⟩
  | .hbm, ⟨9, _⟩ => ⟨S_, .i32⟩
  | .hbm, ⟨10, _⟩ => ⟨S353, .i32⟩
  | .hbm, ⟨11, _⟩ => ⟨S353, .i32⟩
  | .hbm, ⟨12, _⟩ => ⟨S353, .i32⟩
  | .hbm, ⟨13, _⟩ => ⟨S353x1, .i32⟩
  | .hbm, ⟨14, _⟩ => ⟨S10000x353x64, .f32⟩
  | .hbm, ⟨15, _⟩ => ⟨S1x353x1, .f32⟩
  | .hbm, ⟨16, _⟩ => ⟨S10000x353x64, .f32⟩
  | .hbm, ⟨17, _⟩ => ⟨S10000x353x64, .f32⟩
  | .hbm, ⟨18, _⟩ => ⟨S_, .i32⟩
  | .hbm, ⟨19, _⟩ => ⟨S353, .i32⟩
  | .hbm, ⟨20, _⟩ => ⟨S353, .i32⟩
  | .hbm, ⟨21, _⟩ => ⟨S353, .i32⟩
  | .hbm, ⟨22, _⟩ => ⟨S353x1, .i32⟩
  | .hbm, ⟨23, _⟩ => ⟨S10000x353x64, .f32⟩
  | .hbm, ⟨24, _⟩ => ⟨S10000x353x64, .f32⟩
  | .hbm, ⟨25, _⟩ => ⟨S_, .f32⟩
  | .hbm, ⟨26, _⟩ => ⟨S10000x99x64, .f32⟩
  | .hbm, ⟨27, _⟩ => ⟨S_, .i32⟩
  | .hbm, ⟨28, _⟩ => ⟨S353, .i32⟩
  | .hbm, ⟨29, _⟩ => ⟨S353, .i32⟩
  | .hbm, ⟨30, _⟩ => ⟨S353, .i32⟩
  | .hbm, ⟨31, _⟩ => ⟨S353x1, .i32⟩
  | .hbm, ⟨32, _⟩ => ⟨S10000x99x64, .f32⟩
  | _, _ => ⟨S10000x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_cst : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_6 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_7 : Ref sig .tc := ⟨.hbm, 25, rfl⟩
abbrev main_v14 : Ref sig .tc := ⟨.hbm, 26, rfl⟩
abbrev main_c_8 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  bcast_S_S353 : S_.BroadcastsInDim S353 (![] : Fin 0 → Fin S353.rank)
  bcast_S353_S353x1_0 : S353.BroadcastsInDim S353x1 (![0] : Fin 1 → Fin S353x1.rank)
  bcast_S353_S1x353x1_1 : S353.BroadcastsInDim S1x353x1 (![1] : Fin 1 → Fin S1x353x1.rank)
  bcast_S1x353x1_S10000x353x64_0_1_2 : S1x353x1.BroadcastsInDim S10000x353x64 (![0, 1, 2] : Fin 3 → Fin S10000x353x64.rank)
  bcast_S_S10000x99x64 : S_.BroadcastsInDim S10000x99x64 (![] : Fin 0 → Fin S10000x99x64.rank)
  gather_S10000x16x64_S353x1_S10000x353x64_02_1_n_n_1_1_10000164_wf : GatherDims.WF S10000x16x64 S353x1 S10000x353x64 [0, 2] [1] [] [1] [] 1 ![10000, 1, 64]
  scatter_S10000x99x64_S353x1_S10000x353x64_02_1_1_1_wf : ScatterDims.WF S10000x99x64 S353x1 S10000x353x64 [0, 2] [1] [1] 1

variable [Facts₀]

def gather_S10000x16x64_S353x1_S10000x353x64_02_1_n_n_1_1_10000164 : GatherDims S10000x16x64 S353x1 S10000x353x64 where
  offsetDims := [0, 2]
  collapsedSliceDims := [1]
  operandBatchingDims := []
  startIndicesBatchingDims := []
  startIndexMap := [1]
  indexVectorDim := 1
  sliceSizes := ![10000, 1, 64]
  wf := gather_S10000x16x64_S353x1_S10000x353x64_02_1_n_n_1_1_10000164_wf
def scatter_S10000x99x64_S353x1_S10000x353x64_02_1_1_1 : ScatterDims S10000x99x64 S353x1 S10000x353x64 where
  updateWindowDims := [0, 2]
  insertedWindowDims := [1]
  scatterDimsToOperandDims := [1]
  indexVectorDim := 1
  wf := scatter_S10000x99x64_S353x1_S10000x353x64_02_1_1_1_wf

class Facts : Prop extends Facts₀ where

variable [Facts]
-- ==== Proof.TableBodyPieces.lean ====
import proofs.«139308_j12713103196326_2_alg».proof.Proof.Gen.KernelIdeal.Skeleton

/-! The names of the 235 definitions the generated skeleton cuts the kernel body's arithmetic into, as one tactic that
    unfolds them all. A table of names. -/

namespace Cert.KernelIdeal.Block

open Cert.KernelIdeal.Gen in
/-- Unfold every piece of the body's arithmetic. -/
macro "unfold_body_pieces" : tactic => `(tactic| simp only [Cert.KernelIdeal.Gen.k0_pay1, Cert.KernelIdeal.Gen.k0_pay2, Cert.KernelIdeal.Gen.k0_pay3, Cert.KernelIdeal.Gen.k0_pay4, Cert.KernelIdeal.Gen.k0_pay5, Cert.KernelIdeal.Gen.k0_pay6, Cert.KernelIdeal.Gen.k0_pay7, Cert.KernelIdeal.Gen.k0_pay8, Cert.KernelIdeal.Gen.k0_pay9, Cert.KernelIdeal.Gen.k0_pay10, Cert.KernelIdeal.Gen.k0_pay11, Cert.KernelIdeal.Gen.k0_pay12, Cert.KernelIdeal.Gen.k0_pay13, Cert.KernelIdeal.Gen.k0_pay14, Cert.KernelIdeal.Gen.k0_pay15, Cert.KernelIdeal.Gen.k0_pay16, Cert.KernelIdeal.Gen.k0_pay17, Cert.KernelIdeal.Gen.k0_pay18, Cert.KernelIdeal.Gen.k0_pay19, Cert.KernelIdeal.Gen.k0_pay20, Cert.KernelIdeal.Gen.k0_pay21, Cert.KernelIdeal.Gen.k0_pay22, Cert.KernelIdeal.Gen.k0_pay23, Cert.KernelIdeal.Gen.k0_pay24, Cert.KernelIdeal.Gen.k0_pay25, Cert.KernelIdeal.Gen.k0_pay26, Cert.KernelIdeal.Gen.k0_pay27, Cert.KernelIdeal.Gen.k0_pay28, Cert.KernelIdeal.Gen.k0_pay29, Cert.KernelIdeal.Gen.k0_pay30, Cert.KernelIdeal.Gen.k0_pay31, Cert.KernelIdeal.Gen.k0_pay32, Cert.KernelIdeal.Gen.k0_pay33, Cert.KernelIdeal.Gen.k0_pay34, Cert.KernelIdeal.Gen.k0_pay35, Cert.KernelIdeal.Gen.k0_pay36, Cert.KernelIdeal.Gen.k0_pay37, Cert.KernelIdeal.Gen.k0_pay38, Cert.KernelIdeal.Gen.k0_pay39, Cert.KernelIdeal.Gen.k0_pay40, Cert.KernelIdeal.Gen.k0_pay41, Cert.KernelIdeal.Gen.k0_pay42, Cert.KernelIdeal.Gen.k0_pay43, Cert.KernelIdeal.Gen.k0_pay44, Cert.KernelIdeal.Gen.k0_pay45, Cert.KernelIdeal.Gen.k0_pay46, Cert.KernelIdeal.Gen.k0_pay47, Cert.KernelIdeal.Gen.k0_pay48, Cert.KernelIdeal.Gen.k0_pay49, Cert.KernelIdeal.Gen.k0_pay50, Cert.KernelIdeal.Gen.k0_pay51, Cert.KernelIdeal.Gen.k0_pay52, Cert.KernelIdeal.Gen.k0_pay53, Cert.KernelIdeal.Gen.k0_pay54, Cert.KernelIdeal.Gen.k0_pay55, Cert.KernelIdeal.Gen.k0_pay56, Cert.KernelIdeal.Gen.k0_pay57, Cert.KernelIdeal.Gen.k0_pay58, Cert.KernelIdeal.Gen.k0_pay59, Cert.KernelIdeal.Gen.k0_pay60, Cert.KernelIdeal.Gen.k0_pay61, Cert.KernelIdeal.Gen.k0_pay62, Cert.KernelIdeal.Gen.k0_pay63, Cert.KernelIdeal.Gen.k0_pay64, Cert.KernelIdeal.Gen.k0_pay65, Cert.KernelIdeal.Gen.k0_pay66, Cert.KernelIdeal.Gen.k0_pay67, Cert.KernelIdeal.Gen.k0_pay68, Cert.KernelIdeal.Gen.k0_pay69, Cert.KernelIdeal.Gen.k0_pay70, Cert.KernelIdeal.Gen.k0_pay71, Cert.KernelIdeal.Gen.k0_pay72, Cert.KernelIdeal.Gen.k0_pay73, Cert.KernelIdeal.Gen.k0_pay74, Cert.KernelIdeal.Gen.k0_pay75, Cert.KernelIdeal.Gen.k0_pay76, Cert.KernelIdeal.Gen.k0_pay77, Cert.KernelIdeal.Gen.k0_pay78, Cert.KernelIdeal.Gen.k0_pay79, Cert.KernelIdeal.Gen.k0_pay80, Cert.KernelIdeal.Gen.k0_pay81, Cert.KernelIdeal.Gen.k0_pay82, Cert.KernelIdeal.Gen.k0_pay83, Cert.KernelIdeal.Gen.k0_pay84, Cert.KernelIdeal.Gen.k0_pay85, Cert.KernelIdeal.Gen.k0_pay86, Cert.KernelIdeal.Gen.k0_pay87, Cert.KernelIdeal.Gen.k0_pay88, Cert.KernelIdeal.Gen.k0_pay89, Cert.KernelIdeal.Gen.k0_pay90, Cert.KernelIdeal.Gen.k0_pay91, Cert.KernelIdeal.Gen.k0_pay92, Cert.KernelIdeal.Gen.k0_pay93, Cert.KernelIdeal.Gen.k0_pay94, Cert.KernelIdeal.Gen.k0_pay95, Cert.KernelIdeal.Gen.k0_pay96, Cert.KernelIdeal.Gen.k0_pay97, Cert.KernelIdeal.Gen.k0_pay98, Cert.KernelIdeal.Gen.k0_pay99, Cert.KernelIdeal.Gen.k0_pay100, Cert.KernelIdeal.Gen.k0_pay101, Cert.KernelIdeal.Gen.k0_pay102, Cert.KernelIdeal.Gen.k0_pay103, Cert.KernelIdeal.Gen.k0_pay104, Cert.KernelIdeal.Gen.k0_pay105, Cert.KernelIdeal.Gen.k0_pay106, Cert.KernelIdeal.Gen.k0_pay107, Cert.KernelIdeal.Gen.k0_pay108, Cert.KernelIdeal.Gen.k0_pay109, Cert.KernelIdeal.Gen.k0_pay110, Cert.KernelIdeal.Gen.k0_pay111, Cert.KernelIdeal.Gen.k0_pay112, Cert.KernelIdeal.Gen.k0_pay113, Cert.KernelIdeal.Gen.k0_pay114, Cert.KernelIdeal.Gen.k0_pay115, Cert.KernelIdeal.Gen.k0_pay116, Cert.KernelIdeal.Gen.k0_pay117, Cert.KernelIdeal.Gen.k0_pay118, Cert.KernelIdeal.Gen.k0_pay119, Cert.KernelIdeal.Gen.k0_pay120, Cert.KernelIdeal.Gen.k0_pay121, Cert.KernelIdeal.Gen.k0_pay122, Cert.KernelIdeal.Gen.k0_pay123, Cert.KernelIdeal.Gen.k0_pay124, Cert.KernelIdeal.Gen.k0_pay125, Cert.KernelIdeal.Gen.k0_pay126, Cert.KernelIdeal.Gen.k0_pay127, Cert.KernelIdeal.Gen.k0_pay128, Cert.KernelIdeal.Gen.k0_pay129, Cert.KernelIdeal.Gen.k0_pay130, Cert.KernelIdeal.Gen.k0_pay131, Cert.KernelIdeal.Gen.k0_pay132, Cert.KernelIdeal.Gen.k0_pay133, Cert.KernelIdeal.Gen.k0_pay134, Cert.KernelIdeal.Gen.k0_pay135, Cert.KernelIdeal.Gen.k0_pay136, Cert.KernelIdeal.Gen.k0_pay137, Cert.KernelIdeal.Gen.k0_pay138, Cert.KernelIdeal.Gen.k0_pay139, Cert.KernelIdeal.Gen.k0_pay140, Cert.KernelIdeal.Gen.k0_pay141, Cert.KernelIdeal.Gen.k0_pay142, Cert.KernelIdeal.Gen.k0_pay143, Cert.KernelIdeal.Gen.k0_pay144, Cert.KernelIdeal.Gen.k0_pay145, Cert.KernelIdeal.Gen.k0_pay146, Cert.KernelIdeal.Gen.k0_pay147, Cert.KernelIdeal.Gen.k0_pay148, Cert.KernelIdeal.Gen.k0_pay149, Cert.KernelIdeal.Gen.k0_pay150, Cert.KernelIdeal.Gen.k0_pay151, Cert.KernelIdeal.Gen.k0_pay152, Cert.KernelIdeal.Gen.k0_pay153, Cert.KernelIdeal.Gen.k0_pay154, Cert.KernelIdeal.Gen.k0_pay155, Cert.KernelIdeal.Gen.k0_pay156, Cert.KernelIdeal.Gen.k0_pay157, Cert.KernelIdeal.Gen.k0_pay158, Cert.KernelIdeal.Gen.k0_pay159, Cert.KernelIdeal.Gen.k0_pay160, Cert.KernelIdeal.Gen.k0_pay161, Cert.KernelIdeal.Gen.k0_pay162, Cert.KernelIdeal.Gen.k0_pay163, Cert.KernelIdeal.Gen.k0_pay164, Cert.KernelIdeal.Gen.k0_pay165, Cert.KernelIdeal.Gen.k0_pay166, Cert.KernelIdeal.Gen.k0_pay167, Cert.KernelIdeal.Gen.k0_pay168, Cert.KernelIdeal.Gen.k0_pay169, Cert.KernelIdeal.Gen.k0_pay170, Cert.KernelIdeal.Gen.k0_pay171, Cert.KernelIdeal.Gen.k0_pay172, Cert.KernelIdeal.Gen.k0_pay173, Cert.KernelIdeal.Gen.k0_pay174, Cert.KernelIdeal.Gen.k0_pay175, Cert.KernelIdeal.Gen.k0_pay176, Cert.KernelIdeal.Gen.k0_pay177, Cert.KernelIdeal.Gen.k0_pay178, Cert.KernelIdeal.Gen.k0_pay179, Cert.KernelIdeal.Gen.k0_pay180, Cert.KernelIdeal.Gen.k0_pay181, Cert.KernelIdeal.Gen.k0_pay182, Cert.KernelIdeal.Gen.k0_pay183, Cert.KernelIdeal.Gen.k0_pay184, Cert.KernelIdeal.Gen.k0_pay185, Cert.KernelIdeal.Gen.k0_pay186, Cert.KernelIdeal.Gen.k0_pay187, Cert.KernelIdeal.Gen.k0_pay188, Cert.KernelIdeal.Gen.k0_pay189, Cert.KernelIdeal.Gen.k0_pay190, Cert.KernelIdeal.Gen.k0_pay191, Cert.KernelIdeal.Gen.k0_pay192, Cert.KernelIdeal.Gen.k0_pay193, Cert.KernelIdeal.Gen.k0_pay194, Cert.KernelIdeal.Gen.k0_pay195, Cert.KernelIdeal.Gen.k0_pay196, Cert.KernelIdeal.Gen.k0_pay197, Cert.KernelIdeal.Gen.k0_pay198, Cert.KernelIdeal.Gen.k0_pay199, Cert.KernelIdeal.Gen.k0_pay200, Cert.KernelIdeal.Gen.k0_pay201, Cert.KernelIdeal.Gen.k0_pay202, Cert.KernelIdeal.Gen.k0_pay203, Cert.KernelIdeal.Gen.k0_pay204, Cert.KernelIdeal.Gen.k0_pay205, Cert.KernelIdeal.Gen.k0_pay206, Cert.KernelIdeal.Gen.k0_pay207, Cert.KernelIdeal.Gen.k0_pay208, Cert.KernelIdeal.Gen.k0_pay209, Cert.KernelIdeal.Gen.k0_pay210, Cert.KernelIdeal.Gen.k0_pay211, Cert.KernelIdeal.Gen.k0_pay212, Cert.KernelIdeal.Gen.k0_pay213, Cert.KernelIdeal.Gen.k0_pay214, Cert.KernelIdeal.Gen.k0_pay215, Cert.KernelIdeal.Gen.k0_pay216, Cert.KernelIdeal.Gen.k0_pay217, Cert.KernelIdeal.Gen.k0_pay218, Cert.KernelIdeal.Gen.k0_pay219, Cert.KernelIdeal.Gen.k0_pay220, Cert.KernelIdeal.Gen.k0_pay221, Cert.KernelIdeal.Gen.k0_pay222, Cert.KernelIdeal.Gen.k0_pay223, Cert.KernelIdeal.Gen.k0_pay224, Cert.KernelIdeal.Gen.k0_pay225, Cert.KernelIdeal.Gen.k0_pay226, Cert.KernelIdeal.Gen.k0_pay227, Cert.KernelIdeal.Gen.k0_pay228, Cert.KernelIdeal.Gen.k0_pay229, Cert.KernelIdeal.Gen.k0_pay230, Cert.KernelIdeal.Gen.k0_pay231, Cert.KernelIdeal.Gen.k0_pay232, Cert.KernelIdeal.Gen.k0_pay233, Cert.KernelIdeal.Gen.k0_pay234, Cert.KernelIdeal.Gen.k0_pay235])

end Cert.KernelIdeal.Block
-- ==== Proof.TableTerms.lean ====

/-! The 353 products of the tensor product grouped by the output slot (0 to 98) each is added to, ascending within a
    slot: for each slot the positions, and for each position the row of the first operand, the row of the second
    operand and the coefficient's 32-bit word. A table: read off the printed reference's four literal tables; the
    hand-written modules prove it against them. -/

namespace Cert.TP

/-- The positions (0 to 352) whose product goes to slot k, ascending. -/
def sel : Nat → List (Fin 353)
  | 0 => [0]
  | 1 => [1]
  | 2 => [2]
  | 3 => [3]
  | 4 => [4]
  | 5 => [5]
  | 6 => [6]
  | 7 => [7]
  | 8 => [8]
  | 9 => [9]
  | 10 => [10]
  | 11 => [11]
  | 12 => [12]
  | 13 => [13]
  | 14 => [14]
  | 15 => [15]
  | 16 => [16]
  | 17 => [17]
  | 18 => [18]
  | 19 => [19, 20, 21]
  | 20 => [25, 29]
  | 21 => [24, 26]
  | 22 => [22, 27, 31]
  | 23 => [28, 30]
  | 24 => [23, 32]
  | 25 => [35, 36, 37, 40]
  | 26 => [34, 38, 42]
  | 27 => [33, 39, 41, 43]
  | 28 => [50, 57]
  | 29 => [49, 52, 59]
  | 30 => [48, 51, 53, 58]
  | 31 => [46, 54, 61]
  | 32 => [44, 55, 60, 63]
  | 33 => [47, 56, 62]
  | 34 => [45, 64]
  | 35 => [70, 72, 73, 78, 80]
  | 36 => [69, 71, 74, 79]
  | 37 => [67, 75, 82]
  | 38 => [66, 76, 81, 84]
  | 39 => [65, 68, 77, 83, 85]
  | 40 => [86]
  | 41 => [87]
  | 42 => [88]
  | 43 => [89]
  | 44 => [90]
  | 45 => [92, 94, 95, 100]
  | 46 => [93, 96, 99]
  | 47 => [91, 97, 98, 101]
  | 48 => [105, 118]
  | 49 => [104, 110, 114]
  | 50 => [106, 109, 111, 119]
  | 51 => [107, 112, 116]
  | 52 => [102, 113, 115, 121]
  | 53 => [108, 117, 120]
  | 54 => [103, 122]
  | 55 => [123, 124, 125, 126, 127]
  | 56 => [130, 136, 138, 144]
  | 57 => [131, 135, 137, 139, 143, 149]
  | 58 => [128, 133, 140, 146, 152]
  | 59 => [129, 132, 141, 145, 148, 151]
  | 60 => [134, 142, 147, 150]
  | 61 => [156, 157, 160, 161, 162, 165, 169, 170]
  | 62 => [154, 159, 163, 167, 172]
  | 63 => [153, 155, 158, 164, 166, 168, 171, 173]
  | 64 => [179, 189, 192, 198, 208]
  | 65 => [178, 188, 191, 197, 200]
  | 66 => [180, 181, 187, 190, 193, 199, 207, 209]
  | 67 => [175, 185, 194, 202, 213]
  | 68 => [174, 176, 183, 195, 201, 204, 211, 214]
  | 69 => [182, 186, 203, 206, 210]
  | 70 => [177, 184, 196, 205, 212]
  | 71 => [215]
  | 72 => [216]
  | 73 => [217]
  | 74 => [218]
  | 75 => [219]
  | 76 => [220]
  | 77 => [221]
  | 78 => [223, 225, 230, 234, 241]
  | 79 => [226, 229, 231, 238]
  | 80 => [227, 232, 236]
  | 81 => [224, 233, 235, 240]
  | 82 => [222, 228, 237, 239, 242]
  | 83 => [244, 247, 250, 251, 252, 255, 259, 262]
  | 84 => [245, 249, 253, 257, 261]
  | 85 => [243, 246, 248, 254, 256, 258, 260, 263]
  | 86 => [266, 272, 280, 287, 295]
  | 87 => [267, 279, 282, 289, 301]
  | 88 => [268, 273, 278, 281, 283, 288, 296, 300]
  | 89 => [269, 276, 284, 291, 299]
  | 90 => [264, 270, 274, 285, 290, 293, 297, 304]
  | 91 => [265, 277, 286, 292, 303]
  | 92 => [271, 275, 294, 298, 302]
  | 93 => [305, 306, 307, 308, 309, 310, 311]
  | 94 => [315, 319, 327, 329, 330, 335, 337, 349]
  | 95 => [316, 320, 321, 326, 328, 331, 336, 343, 344, 348]
  | 96 => [312, 324, 332, 339, 352]
  | 97 => [313, 317, 318, 323, 333, 338, 341, 346, 347, 351]
  | 98 => [314, 322, 325, 334, 340, 342, 345, 350]
  | _ => []

/-- Slot k's products in that order: (row of the first operand, row of the second operand, coefficient word). -/
def kterms : Nat → List (Fin 16 × Fin 16 × BitVec 32)
  | 0 => [(0, 0, 0x3F800000#32)]
  | 1 => [(0, 1, 0x3F800000#32)]
  | 2 => [(0, 2, 0x3F800000#32)]
  | 3 => [(0, 3, 0x3F800000#32)]
  | 4 => [(0, 4, 0x3F800000#32)]
  | 5 => [(0, 5, 0x3F800000#32)]
  | 6 => [(0, 6, 0x3F800000#32)]
  | 7 => [(0, 7, 0x3F800000#32)]
  | 8 => [(0, 8, 0x3F800000#32)]
  | 9 => [(0, 9, 0x3F800000#32)]
  | 10 => [(0, 10, 0x3F800000#32)]
  | 11 => [(0, 11, 0x3F800000#32)]
  | 12 => [(0, 12, 0x3F800000#32)]
  | 13 => [(0, 13, 0x3F800000#32)]
  | 14 => [(0, 14, 0x3F800000#32)]
  | 15 => [(0, 15, 0x3F800000#32)]
  | 16 => [(1, 0, 0x3F800000#32)]
  | 17 => [(2, 0, 0x3F800000#32)]
  | 18 => [(3, 0, 0x3F800000#32)]
  | 19 => [(1, 1, 0x3F13CD3A#32), (2, 2, 0x3F13CD3A#32), (3, 3, 0x3F13CD3A#32)]
  | 20 => [(1, 3, 0x3F3504F3#32), (3, 1, 0x3F3504F3#32)]
  | 21 => [(1, 2, 0x3F3504F3#32), (2, 1, 0x3F3504F3#32)]
  | 22 => [(1, 1, 0xBED105EC#32), (2, 2, 0x3F5105EC#32), (3, 3, 0xBED105EC#32)]
  | 23 => [(2, 3, 0x3F3504F3#32), (3, 2, 0x3F3504F3#32)]
  | 24 => [(1, 1, 0xBF3504F3#32), (3, 3, 0x3F3504F3#32)]
  | 25 => [(1, 6, 0xBEA1E89B#32), (1, 8, 0xBF0C378C#32), (2, 5, 0x3F0C378C#32), (3, 4, 0x3F0C378C#32)]
  | 26 => [(1, 5, 0x3F0C378C#32), (2, 6, 0x3F21E89B#32), (3, 7, 0x3F0C378C#32)]
  | 27 => [(1, 4, 0x3F0C378C#32), (2, 7, 0x3F0C378C#32), (3, 6, 0xBEA1E89B#32), (3, 8, 0x3F0C378C#32)]
  | 28 => [(1, 8, 0x3F3504F3#32), (3, 4, 0x3F3504F3#32)]
  | 29 => [(1, 7, 0x3F13CD3A#32), (2, 4, 0x3F13CD3A#32), (3, 5, 0x3F13CD3A#32)]
  | 30 => [(1, 6, 0x3F21E89B#32), (1, 8, 0x3E3AF4BA#32), (2, 5, 0x3F3AF4BA#32), (3, 4, 0xBE3AF4BA#32)]
  | 31 => [(1, 5, 0xBEE4F92E#32), (2, 6, 0x3F464BF8#32), (3, 7, 0xBEE4F92E#32)]
  | 32 => [(1, 4, 0xBE3AF4BA#32), (2, 7, 0x3F3AF4BA#32), (3, 6, 0x3F21E89B#32), (3, 8, 0xBE3AF4BA#32)]
  | 33 => [(1, 5, 0xBF13CD3A#32), (2, 8, 0x3F13CD3A#32), (3, 7, 0x3F13CD3A#32)]
  | 34 => [(1, 4, 0xBF3504F3#32), (3, 8, 0x3F3504F3#32)]
  | 35 => [(1, 13, 0xBE1E01B3#32), (1, 15, 0xBF18FD40#32), (2, 10, 0x3EF9D496#32), (3, 9, 0x3F18FD40#32), (3, 11, 0xBE1E01B3#32)]
  | 36 => [(1, 12, 0xBEC1848F#32), (1, 14, 0xBEF9D496#32), (2, 11, 0x3F1E01B3#32), (3, 10, 0x3EF9D496#32)]
  | 37 => [(1, 11, 0x3F08D677#32), (2, 12, 0x3F279762#32), (3, 13, 0x3F08D677#32)]
  | 38 => [(1, 10, 0x3EF9D496#32), (2, 13, 0x3F1E01B3#32), (3, 12, 0xBEC1848F#32), (3, 14, 0x3EF9D496#32)]
  | 39 => [(1, 9, 0x3F18FD40#32), (1, 11, 0x3E1E01B3#32), (2, 14, 0x3EF9D496#32), (3, 13, 0xBE1E01B3#32), (3, 15, 0x3F18FD40#32)]
  | 40 => [(4, 0, 0x3F800000#32)]
  | 41 => [(5, 0, 0x3F800000#32)]
  | 42 => [(6, 0, 0x3F800000#32)]
  | 43 => [(7, 0, 0x3F800000#32)]
  | 44 => [(8, 0, 0x3F800000#32)]
  | 45 => [(4, 3, 0x3F0C378C#32), (5, 2, 0x3F0C378C#32), (6, 1, 0xBEA1E89B#32), (8, 1, 0xBF0C378C#32)]
  | 46 => [(5, 1, 0x3F0C378C#32), (6, 2, 0x3F21E89B#32), (7, 3, 0x3F0C378C#32)]
  | 47 => [(4, 1, 0x3F0C378C#32), (6, 3, 0xBEA1E89B#32), (7, 2, 0x3F0C378C#32), (8, 3, 0x3F0C378C#32)]
  | 48 => [(4, 3, 0x3F3504F3#32), (8, 1, 0x3F3504F3#32)]
  | 49 => [(4, 2, 0x3F13CD3A#32), (5, 3, 0x3F13CD3A#32), (7, 1, 0x3F13CD3A#32)]
  | 50 => [(4, 3, 0xBE3AF4BA#32), (5, 2, 0x3F3AF4BA#32), (6, 1, 0x3F21E89B#32), (8, 1, 0x3E3AF4BA#32)]
  | 51 => [(5, 1, 0xBEE4F92E#32), (6, 2, 0x3F464BF8#32), (7, 3, 0xBEE4F92E#32)]
  | 52 => [(4, 1, 0xBE3AF4BA#32), (6, 3, 0x3F21E89B#32), (7, 2, 0x3F3AF4BA#32), (8, 3, 0xBE3AF4BA#32)]
  | 53 => [(5, 1, 0xBF13CD3A#32), (7, 3, 0x3F13CD3A#32), (8, 2, 0x3F13CD3A#32)]
  | 54 => [(4, 1, 0xBF3504F3#32), (8, 3, 0x3F3504F3#32)]
  | 55 => [(4, 4, 0x3EE4F92E#32), (5, 5, 0x3EE4F92E#32), (6, 6, 0x3EE4F92E#32), (7, 7, 0x3EE4F92E#32), (8, 8, 0x3EE4F92E#32)]
  | 56 => [(4, 6, 0xBF08D677#32), (5, 7, 0x3EED028C#32), (6, 4, 0xBF08D677#32), (7, 5, 0x3EED028C#32)]
  | 57 => [(4, 7, 0x3EED028C#32), (5, 6, 0x3E88D677#32), (5, 8, 0xBEED028C#32), (6, 5, 0x3E88D677#32), (7, 4, 0x3EED028C#32), (8, 5, 0xBEED028C#32)]
  | 58 => [(4, 4, 0xBF08D677#32), (5, 5, 0x3E88D677#32), (6, 6, 0x3F08D677#32), (7, 7, 0x3E88D677#32), (8, 8, 0xBF08D677#32)]
  | 59 => [(4, 5, 0x3EED028C#32), (5, 4, 0x3EED028C#32), (6, 7, 0x3E88D677#32), (7, 6, 0x3E88D677#32), (7, 8, 0x3EED028C#32), (8, 7, 0x3EED028C#32)]
  | 60 => [(5, 5, 0xBEED028C#32), (6, 8, 0xBF08D677#32), (7, 7, 0x3EED028C#32), (8, 6, 0xBF08D677#32)]
  | 61 => [(4, 13, 0xBDF4C867#32), (4, 15, 0xBEED028C#32), (5, 12, 0xBE95E5F4#32), (5, 14, 0xBEC1848F#32), (6, 11, 0x3ED3FCF7#32), (7, 10, 0x3EC1848F#32), (8, 9, 0x3EED028C#32), (8, 11, 0x3DF4C867#32)]
  | 62 => [(4, 10, 0x3EC1848F#32), (5, 11, 0x3EF4C867#32), (6, 12, 0x3F01D0D1#32), (7, 13, 0x3EF4C867#32), (8, 14, 0x3EC1848F#32)]
  | 63 => [(4, 9, 0x3EED028C#32), (4, 11, 0xBDF4C867#32), (5, 10, 0x3EC1848F#32), (6, 13, 0x3ED3FCF7#32), (7, 12, 0xBE95E5F4#32), (7, 14, 0x3EC1848F#32), (8, 13, 0xBDF4C867#32), (8, 15, 0x3EED028C#32)]
  | 64 => [(4, 13, 0xBE93CD3A#32), (5, 14, 0x3EE9B1E9#32), (6, 9, 0xBF253F4E#32), (7, 10, 0x3EE9B1E9#32), (8, 11, 0xBE93CD3A#32)]
  | 65 => [(4, 12, 0xBF13CD3A#32), (5, 13, 0x3EB504F3#32), (5, 15, 0xBEE9B1E9#32), (7, 9, 0x3EE9B1E9#32), (7, 11, 0x3EB504F3#32)]
  | 66 => [(4, 13, 0x3EE4F92E#32), (4, 15, 0x3E93CD3A#32), (5, 12, 0x3E3AF4BA#32), (5, 14, 0xBEB504F3#32), (6, 11, 0x3EC64BF8#32), (7, 10, 0x3EB504F3#32), (8, 9, 0xBE93CD3A#32), (8, 11, 0xBEE4F92E#32)]
  | 67 => [(4, 10, 0xBF13CD3A#32), (5, 11, 0x3E3AF4BA#32), (6, 12, 0x3F0432A5#32), (7, 13, 0x3E3AF4BA#32), (8, 14, 0xBF13CD3A#32)]
  | 68 => [(4, 9, 0xBE93CD3A#32), (4, 11, 0x3EE4F92E#32), (5, 10, 0x3EB504F3#32), (6, 13, 0x3EC64BF8#32), (7, 12, 0x3E3AF4BA#32), (7, 14, 0x3EB504F3#32), (8, 13, 0x3EE4F92E#32), (8, 15, 0xBE93CD3A#32)]
  | 69 => [(5, 9, 0x3EE9B1E9#32), (5, 11, 0xBEB504F3#32), (7, 13, 0x3EB504F3#32), (7, 15, 0x3EE9B1E9#32), (8, 12, 0xBF13CD3A#32)]
  | 70 => [(4, 11, 0x3E93CD3A#32), (5, 10, 0xBEE9B1E9#32), (6, 15, 0xBF253F4E#32), (7, 14, 0x3EE9B1E9#32), (8, 13, 0xBE93CD3A#32)]
  | 71 => [(9, 0, 0x3F800000#32)]
  | 72 => [(10, 0, 0x3F800000#32)]
  | 73 => [(11, 0, 0x3F800000#32)]
  | 74 => [(12, 0, 0x3F800000#32)]
  | 75 => [(13, 0, 0x3F800000#32)]
  | 76 => [(14, 0, 0x3F800000#32)]
  | 77 => [(15, 0, 0x3F800000#32)]
  | 78 => [(9, 3, 0x3F18FD40#32), (10, 2, 0x3EF9D496#32), (11, 3, 0xBE1E01B3#32), (13, 1, 0xBE1E01B3#32), (15, 1, 0xBF18FD40#32)]
  | 79 => [(10, 3, 0x3EF9D496#32), (11, 2, 0x3F1E01B3#32), (12, 1, 0xBEC1848F#32), (14, 1, 0xBEF9D496#32)]
  | 80 => [(11, 1, 0x3F08D677#32), (12, 2, 0x3F279762#32), (13, 3, 0x3F08D677#32)]
  | 81 => [(10, 1, 0x3EF9D496#32), (12, 3, 0xBEC1848F#32), (13, 2, 0x3F1E01B3#32), (14, 3, 0x3EF9D496#32)]
  | 82 => [(9, 1, 0x3F18FD40#32), (11, 1, 0x3E1E01B3#32), (13, 3, 0xBE1E01B3#32), (14, 2, 0x3EF9D496#32), (15, 3, 0x3F18FD40#32)]
  | 83 => [(9, 8, 0x3EED028C#32), (10, 7, 0x3EC1848F#32), (11, 6, 0x3ED3FCF7#32), (11, 8, 0x3DF4C867#32), (12, 5, 0xBE95E5F4#32), (13, 4, 0xBDF4C867#32), (14, 5, 0xBEC1848F#32), (15, 4, 0xBEED028C#32)]
  | 84 => [(10, 4, 0x3EC1848F#32), (11, 5, 0x3EF4C867#32), (12, 6, 0x3F01D0D1#32), (13, 7, 0x3EF4C867#32), (14, 8, 0x3EC1848F#32)]
  | 85 => [(9, 4, 0x3EED028C#32), (10, 5, 0x3EC1848F#32), (11, 4, 0xBDF4C867#32), (12, 7, 0xBE95E5F4#32), (13, 6, 0x3ED3FCF7#32), (13, 8, 0xBDF4C867#32), (14, 7, 0x3EC1848F#32), (15, 8, 0x3EED028C#32)]
  | 86 => [(9, 6, 0xBF253F4E#32), (10, 7, 0x3EE9B1E9#32), (11, 8, 0xBE93CD3A#32), (13, 4, 0xBE93CD3A#32), (14, 5, 0x3EE9B1E9#32)]
  | 87 => [(9, 7, 0x3EE9B1E9#32), (11, 7, 0x3EB504F3#32), (12, 4, 0xBF13CD3A#32), (13, 5, 0x3EB504F3#32), (15, 5, 0xBEE9B1E9#32)]
  | 88 => [(9, 8, 0xBE93CD3A#32), (10, 7, 0x3EB504F3#32), (11, 6, 0x3EC64BF8#32), (11, 8, 0xBEE4F92E#32), (12, 5, 0x3E3AF4BA#32), (13, 4, 0x3EE4F92E#32), (14, 5, 0xBEB504F3#32), (15, 4, 0x3E93CD3A#32)]
  | 89 => [(10, 4, 0xBF13CD3A#32), (11, 5, 0x3E3AF4BA#32), (12, 6, 0x3F0432A5#32), (13, 7, 0x3E3AF4BA#32), (14, 8, 0xBF13CD3A#32)]
  | 90 => [(9, 4, 0xBE93CD3A#32), (10, 5, 0x3EB504F3#32), (11, 4, 0x3EE4F92E#32), (12, 7, 0x3E3AF4BA#32), (13, 6, 0x3EC64BF8#32), (13, 8, 0x3EE4F92E#32), (14, 7, 0x3EB504F3#32), (15, 8, 0xBE93CD3A#32)]
  | 91 => [(9, 5, 0x3EE9B1E9#32), (11, 5, 0xBEB504F3#32), (12, 8, 0xBF13CD3A#32), (13, 7, 0x3EB504F3#32), (15, 7, 0x3EE9B1E9#32)]
  | 92 => [(10, 5, 0xBEE9B1E9#32), (11, 4, 0x3E93CD3A#32), (13, 8, 0xBE93CD3A#32), (14, 7, 0x3EE9B1E9#32), (15, 6, 0xBF253F4E#32)]
  | 93 => [(9, 9, 0x3EC1848F#32), (10, 10, 0x3EC1848F#32), (11, 11, 0x3EC1848F#32), (12, 12, 0x3EC1848F#32), (13, 13, 0x3EC1848F#32), (14, 14, 0x3EC1848F#32), (15, 15, 0x3EC1848F#32)]
  | 94 => [(9, 13, 0xBE79D496#32), (10, 12, 0xBEF9D496#32), (11, 13, 0x3EC1848F#32), (11, 15, 0x3E79D496#32), (12, 10, 0xBEF9D496#32), (13, 9, 0xBE79D496#32), (13, 11, 0x3EC1848F#32), (15, 11, 0x3E79D496#32)]
  | 95 => [(9, 14, 0x3EC5821F#32), (10, 13, 0x3E98FD40#32), (10, 15, 0xBEC5821F#32), (11, 12, 0x3E1E01B3#32), (11, 14, 0xBE98FD40#32), (12, 11, 0x3E1E01B3#32), (13, 10, 0x3E98FD40#32), (14, 9, 0x3EC5821F#32), (14, 11, 0xBE98FD40#32), (15, 10, 0xBEC5821F#32)]
  | 96 => [(9, 9, 0xBF0BA8D2#32), (11, 11, 0x3EA79762#32), (12, 12, 0x3EDF7483#32), (13, 13, 0x3EA79762#32), (15, 15, 0xBF0BA8D2#32)]
  | 97 => [(9, 10, 0x3EC5821F#32), (10, 9, 0x3EC5821F#32), (10, 11, 0x3E98FD40#32), (11, 10, 0x3E98FD40#32), (12, 13, 0x3E1E01B3#32), (13, 12, 0x3E1E01B3#32), (13, 14, 0x3E98FD40#32), (14, 13, 0x3E98FD40#32), (14, 15, 0x3EC5821F#32), (15, 14, 0x3EC5821F#32)]
  | 98 => [(9, 11, 0xBE79D496#32), (11, 9, 0xBE79D496#32), (11, 11, 0xBEC1848F#32), (12, 14, 0xBEF9D496#32), (13, 13, 0x3EC1848F#32), (13, 15, 0xBE79D496#32), (14, 12, 0xBEF9D496#32), (15, 13, 0xBE79D496#32)]
  | _ => []

end Cert.TP
-- ==== Proof.Spec.lean ====
import proofs.«139308_j12713103196326_2_alg».proof.ReferenceIdeal
import proofs.«139308_j12713103196326_2_alg».proof.Proof.TableTerms
import Idealize.ShloMosaic.PureOps.Ideal
import Idealize.ShloMosaic.Lib.ValueIdx

/-!
# The tensor product, slot by slot

Both programs compute, for every batch entry b and channel c, the 99 numbers

    out[b, k, c] = sum over the products n that go to slot k of  x[b, r1 n, c] * y[b, r2 n, c] * g n

where the 353 products (their rows r1 n, r2 n of the two operands, their coefficient g n and their slot) are fixed
tables. The kernel spells each slot as an explicit sum of its products in ascending n; the reference multiplies all
353 products out and adds each into its slot. This module states the slot sum over two 16-row columns X and Y
(the rows of x and y at a fixed b and c), checks the grouped table against the reference's four tables, and brings
the reference's filtered sum to the slot sum. The laws used are the commutativity and associativity of the sum and
of the product of extended reals, which hold at the infinities too: no input needs to be finite.
-/

noncomputable section

namespace Cert.TP

open Idealize.ShloMosaic Cert.ReferenceIdeal

/-- The row of the first operand that product n reads: the table's entry read signed and clamped into [0, 15],
    as the gather reads it. -/
def row1 (n : Fin 353) : Fin 16 := ⟨min (lit0 n).toInt.toNat (16 - 1), by omega⟩

/-- The row of the second operand that product n reads. -/
def row2 (n : Fin 353) : Fin 16 := ⟨min (lit2 n).toInt.toNat (16 - 1), by omega⟩

/-- One product: a row of X times a row of Y times the coefficient. -/
def term (X Y : Fin 16 → EReal) (t : Fin 16 × Fin 16 × BitVec 32) : EReal :=
  X t.1 * Y t.2.1 * Ideal.ofBits .f32 t.2.2

/-- The products of one slot added in order, the first one opening the sum. -/
def sumTerms (X Y : Fin 16 → EReal) : List (Fin 16 × Fin 16 × BitVec 32) → EReal
  | [] => 0
  | t :: l => l.foldl (fun acc s => acc + term X Y s) (term X Y t)

/-- Slot k of the tensor product of the columns X and Y. -/
def slot (X Y : Fin 16 → EReal) (k : Nat) : EReal := sumTerms X Y (kterms k)

/-- The tensor product of two arrays of shape [B, 16, C] at batch entry b, slot k and channel c: slot k of the
    tensor product of the two columns of 16 rows at (b, c). -/
def tensorAt {B C : Nat} (a0 a1 : (⟨3, ![B, 16, C]⟩ : Shape).Idx → EReal) (b : Fin B) (k : Fin 99) (c : Fin C) : EReal :=
  slot (fun m => a0 (ValueIdx.ix3 b m c)) (fun m => a1 (ValueIdx.ix3 b m c)) k.val

/-- The tensor product of two arrays of shape [B, 16, C] as one array of shape [B, 99, C]. -/
def tensor {B C : Nat} (a0 a1 : (⟨3, ![B, 16, C]⟩ : Shape).Idx → EReal) : (⟨3, ![B, 99, C]⟩ : Shape).Idx → EReal :=
  fun i => tensorAt a0 a1 (i 0) (i 1) (i 2)

theorem tensor_ix3 {B C : Nat} (a0 a1 : (⟨3, ![B, 16, C]⟩ : Shape).Idx → EReal) (b : Fin B) (k : Fin 99) (c : Fin C) :
    tensor a0 a1 (ValueIdx.ix3 b k c) = tensorAt a0 a1 b k c := rfl

/-! ## The grouped table against the reference's tables -/

/-- Slot k's products are the reference's products at the positions of slot k, with the rows and the coefficient
    the reference's tables give. -/
theorem kterms_eq : ∀ k : Fin 99, kterms k.val = (sel k.val).map (fun n => (row1 n, row2 n, lit1 n)) := by
  decide +kernel

/-- Every position listed for slot k has slot k in the reference's table. -/
theorem sel_sound : ∀ k : Fin 99, ∀ n ∈ sel k.val, (lit3 n).toInt = (k.val : Int) := by
  decide +kernel

/-- Every position is listed for the slot the reference's table gives it. -/
theorem sel_complete : ∀ n : Fin 353, n ∈ sel (lit3 n).toNat := by
  decide +kernel

/-- No position is listed twice. -/
theorem sel_nodup : ∀ k : Fin 99, (sel k.val).Nodup := by
  decide +kernel

/-- The slot entries are small nonnegative numbers: read signed or unsigned they are the same. -/
theorem lit3_nonneg : ∀ n : Fin 353, (lit3 n).toInt = ((lit3 n).toNat : Int) := by
  decide +kernel

/-- The positions whose slot is k, as a set, are the listed ones. -/
theorem filter_slot_eq (k : Fin 99) :
    Finset.univ.filter (fun n : Fin 353 => (lit3 n).toInt = (k.val : Int)) = (sel k.val).toFinset := by
  ext n
  rw [Finset.mem_filter, List.mem_toFinset]
  constructor
  · rintro ⟨-, h⟩
    have h' : (lit3 n).toNat = k.val := by
      have := lit3_nonneg n
      omega
    rw [← h']
    exact sel_complete n
  · intro h
    exact ⟨Finset.mem_univ _, sel_sound k n h⟩

/-! ## Sums of a list -/

/-- Adding the images of a list onto a first value, one after the other, is that value plus the list's sum. -/
theorem foldl_add_eq {α : Type} (f : α → EReal) (l : List α) (a : EReal) :
    l.foldl (fun acc s => acc + f s) a = a + (l.map f).sum := by
  induction l generalizing a with
  | nil => simp
  | cons s l ih => rw [List.foldl_cons, ih, List.map_cons, List.sum_cons, add_assoc]

/-- The products added in order are the sum of the list of products. -/
theorem sumTerms_eq_sum (X Y : Fin 16 → EReal) (l : List (Fin 16 × Fin 16 × BitVec 32)) :
    sumTerms X Y l = (l.map (term X Y)).sum := by
  cases l with
  | nil => rfl
  | cons t l => rw [sumTerms, foldl_add_eq, List.map_cons, List.sum_cons]

/-! ## The reference's sum is the slot sum -/

/-- Zero plus the reference's products whose slot is k, each spelt x-row times coefficient times y-row, is slot k
    of the tensor product: the same products, each regrouped by commutativity of the product, added in the order
    the table lists them. -/
theorem ref_slot (X Y : Fin 16 → EReal) (k : Fin 99) :
    (0 : EReal) + ∑ n ∈ Finset.univ.filter (fun n : Fin 353 => (lit3 n).toInt = (k.val : Int)),
        X (row1 n) * Ideal.ofBits .f32 (lit1 n) * Y (row2 n) = slot X Y k.val := by
  rw [zero_add, filter_slot_eq, List.sum_toFinset _ (sel_nodup k), slot, sumTerms_eq_sum, kterms_eq k, List.map_map]
  refine congrArg List.sum (List.map_congr_left fun n _ => ?_)
  show X (row1 n) * Ideal.ofBits .f32 (lit1 n) * Y (row2 n) = X (row1 n) * Y (row2 n) * Ideal.ofBits .f32 (lit1 n)
  exact mul_right_comm _ _ _

end Cert.TP

end
-- ==== Proof.LibMidAxis.lean ====
import Idealize.ShloMosaic.Lib.ValueIdx
import Idealize.ShloMosaic.Lib.Pipeline.Value
import Idealize.ShloMosaic.PureOps.Ideal

/-!
# The middle axis of a rank-3 array

For arrays of shape [B, N, C]: taking entries along the middle axis at a list of positions (a StableHLO gather with
start indices [E, 1] and result [B, E, C]), adding updates [B, E, C] into the middle axis at a list of positions
(an accumulating scatter), the rectangle that is one position of the middle axis through all of the other two (a
slab), and the shape casts that drop or add the unit middle axis of a slab. Each is read at an explicit index
(b, ., c). Extents are generic.
-/

noncomputable section

namespace Idealize.ShloMosaic.ValueIdx

open Idealize.ShloMosaic

/-! ## Taking along the middle axis: operand [B, N, C], start indices [E, 1], result [B, E, C] -/

section GatherMid
variable {α : Type}

/-- The dimension numbers: result axes 0 and 2 are the operand's own (offset axes), operand axis 1 is
    collapsed and is the one a start index names, the index vector is on axis 1 of the start indices, a slice is
    all of axis 0, one position of axis 1, all of axis 2. -/
abbrev midGatherDims (B N E C : Nat)
    (wf : GatherDims.WF ⟨3, ![B, N, C]⟩ ⟨2, ![E, 1]⟩ ⟨3, ![B, E, C]⟩ [0, 2] [1] [] [1] [] 1 ![B, 1, C]) :
    GatherDims ⟨3, ![B, N, C]⟩ ⟨2, ![E, 1]⟩ ⟨3, ![B, E, C]⟩ where
  offsetDims := [0, 2]
  collapsedSliceDims := [1]
  operandBatchingDims := []
  startIndicesBatchingDims := []
  startIndexMap := [1]
  indexVectorDim := 1
  sliceSizes := ![B, 1, C]
  wf := wf

/-- Result element (b, e, c) is the operand at (b, idx[e, 0], c), the position read signed and clamped into
    [0, N - 1]. -/
theorem gather_mid_apply {B N E C w : Nat} (hN : 0 < N)
    (wf : GatherDims.WF ⟨3, ![B, N, C]⟩ ⟨2, ![E, 1]⟩ ⟨3, ![B, E, C]⟩ [0, 2] [1] [] [1] [] 1 ![B, 1, C])
    (x : (⟨3, ![B, N, C]⟩ : Shape).Idx → α) (idx : IVec ⟨2, ![E, 1]⟩ w) (b : Fin B) (e : Fin E) (c : Fin C) :
    Host.gather (midGatherDims B N E C wf) x idx (ix3 b e c) =
      x (ix3 b ⟨min (idx (ix2 e ⟨0, Nat.one_pos⟩)).toInt.toNat (N - 1), by omega⟩ c) := by
  have hn0 : (0 : Fin 3) ∉ ([1] : List (Fin 3)) := fun h =>
    absurd (congrArg Fin.val (List.mem_singleton.mp h)) (by decide)
  have hn2 : (2 : Fin 3) ∉ ([1] : List (Fin 3)) := fun h =>
    absurd (congrArg Fin.val (List.mem_singleton.mp h)) (by decide)
  have h1 : ((midGatherDims B N E C wf).operandIdx (ix3 b e c) idx (1 : Fin 3)).val =
      min (idx (ix2 e ⟨0, Nat.one_pos⟩)).toInt.toNat (N - 1) := by
    show (midGatherDims B N E C wf).start (ix3 b e c) idx 1 + (midGatherDims B N E C wf).batchCoord (ix3 b e c) 1
      + (midGatherDims B N E C wf).offCoord (ix3 b e c) 1 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (1 : Fin 3) ∈ (midGatherDims B N E C wf).startIndexMap from List.mem_singleton.mpr rfl)]
    have hsi : (midGatherDims B N E C wf).siIdx (ix3 b e c)
        ⟨List.idxOf (1 : Fin 3) (midGatherDims B N E C wf).startIndexMap,
          List.idxOf_lt_length_iff.2 (List.mem_singleton.mpr rfl)⟩ = ix2 e ⟨0, Nat.one_pos⟩ := by
      funext a; refine Fin.ext ?_
      match a with
      | ⟨0, _⟩ => rfl
      | ⟨1, _⟩ => rfl
    rw [hsi]
    rfl
  have h0 : ((midGatherDims B N E C wf).operandIdx (ix3 b e c) idx (0 : Fin 3)).val = b.val := by
    show (midGatherDims B N E C wf).start (ix3 b e c) idx 0 + (midGatherDims B N E C wf).batchCoord (ix3 b e c) 0
      + (midGatherDims B N E C wf).offCoord (ix3 b e c) 0 = _
    have hst : (midGatherDims B N E C wf).start (ix3 b e c) idx (0 : Fin 3) = 0 := by
      unfold GatherDims.start
      rw [dif_neg hn0]
    have hk : (0 : Fin 3) ∈ (midGatherDims B N E C wf).sKept :=
      (GatherDims.mem_sKept _ _).mpr ⟨hn0, List.not_mem_nil⟩
    have hoff : (midGatherDims B N E C wf).offCoord (ix3 b e c) (0 : Fin 3) = b.val := by
      unfold GatherDims.offCoord
      rw [dif_pos hk]
      rfl
    rw [GatherDims.batchCoord_eq_zero _ _ _ List.not_mem_nil, hst, hoff, Nat.add_zero, Nat.zero_add]
  have h2 : ((midGatherDims B N E C wf).operandIdx (ix3 b e c) idx (2 : Fin 3)).val = c.val := by
    show (midGatherDims B N E C wf).start (ix3 b e c) idx 2 + (midGatherDims B N E C wf).batchCoord (ix3 b e c) 2
      + (midGatherDims B N E C wf).offCoord (ix3 b e c) 2 = _
    have hst : (midGatherDims B N E C wf).start (ix3 b e c) idx (2 : Fin 3) = 0 := by
      unfold GatherDims.start
      rw [dif_neg hn2]
    have hk : (2 : Fin 3) ∈ (midGatherDims B N E C wf).sKept :=
      (GatherDims.mem_sKept _ _).mpr ⟨hn2, List.not_mem_nil⟩
    have hoff : (midGatherDims B N E C wf).offCoord (ix3 b e c) (2 : Fin 3) = c.val := by
      unfold GatherDims.offCoord
      rw [dif_pos hk]
      rfl
    rw [GatherDims.batchCoord_eq_zero _ _ _ List.not_mem_nil, hst, hoff, Nat.add_zero, Nat.zero_add]
  unfold Host.gather
  congr 1
  funext a
  refine Fin.ext ?_
  match a with
  | ⟨0, _⟩ => exact h0
  | ⟨1, _⟩ => exact h1
  | ⟨2, _⟩ => exact h2

end GatherMid

/-! ## Adding into the middle axis: operand [B, N, C], scatter indices [E, 1], updates [B, E, C] -/

section ScatterMid

/-- The dimension numbers: update axes 0 and 2 are window axes going to operand axes 0 and 2, operand axis
    1 is inserted and is the one a scatter index names, the index vector is on axis 1 of the scatter indices. -/
abbrev midScatterDims (B N E C : Nat)
    (wf : ScatterDims.WF ⟨3, ![B, N, C]⟩ ⟨2, ![E, 1]⟩ ⟨3, ![B, E, C]⟩ [0, 2] [1] [1] 1) :
    ScatterDims ⟨3, ![B, N, C]⟩ ⟨2, ![E, 1]⟩ ⟨3, ![B, E, C]⟩ where
  updateWindowDims := [0, 2]
  insertedWindowDims := [1]
  scatterDimsToOperandDims := [1]
  indexVectorDim := 1
  wf := wf

variable {B N E C w : Nat} (wf : ScatterDims.WF ⟨3, ![B, N, C]⟩ ⟨2, ![E, 1]⟩ ⟨3, ![B, E, C]⟩ [0, 2] [1] [1] 1)
  (idx : IVec ⟨2, ![E, 1]⟩ w) (b : Fin B) (e : Fin E) (c : Fin C)

private theorem not_mem_one0 : (0 : Fin 3) ∉ ([1] : List (Fin 3)) := fun h =>
  absurd (congrArg Fin.val (List.mem_singleton.mp h)) (by decide)
private theorem not_mem_one2 : (2 : Fin 3) ∉ ([1] : List (Fin 3)) := fun h =>
  absurd (congrArg Fin.val (List.mem_singleton.mp h)) (by decide)

/-- On the middle axis the window of update (b, e, c) starts at the scatter index idx[e, 0], read signed. -/
theorem scatter_mid_start1 :
    (midScatterDims B N E C wf).start (ix3 b e c) idx 1 = (idx (ix2 e ⟨0, Nat.one_pos⟩)).toInt := by
  unfold ScatterDims.start
  rw [dif_pos (show (1 : Fin 3) ∈ (midScatterDims B N E C wf).scatterDimsToOperandDims from
    List.mem_singleton.mpr rfl)]
  have hsi : (midScatterDims B N E C wf).siIdx (ix3 b e c)
      ⟨List.idxOf (1 : Fin 3) (midScatterDims B N E C wf).scatterDimsToOperandDims,
        List.idxOf_lt_length_iff.2 (List.mem_singleton.mpr rfl)⟩ = ix2 e ⟨0, Nat.one_pos⟩ := by
    funext a; refine Fin.ext ?_
    match a with
    | ⟨0, _⟩ => rfl
    | ⟨1, _⟩ => rfl
  rw [hsi]

theorem scatter_mid_start0 : (midScatterDims B N E C wf).start (ix3 b e c) idx 0 = 0 := by
  unfold ScatterDims.start
  rw [dif_neg not_mem_one0]

theorem scatter_mid_start2 : (midScatterDims B N E C wf).start (ix3 b e c) idx 2 = 0 := by
  unfold ScatterDims.start
  rw [dif_neg not_mem_one2]

theorem scatter_mid_window1 : (midScatterDims B N E C wf).window (ix3 b e c) 1 = 0 := by
  unfold ScatterDims.window
  rw [dif_neg]
  simp [ScatterDims.sKept, Shape.kept, List.mem_filter]

theorem scatter_mid_window0 : (midScatterDims B N E C wf).window (ix3 b e c) 0 = b.val := by
  have hk : (0 : Fin 3) ∈ (midScatterDims B N E C wf).sKept := by
    simp [ScatterDims.sKept, Shape.kept, List.mem_filter, List.mem_finRange]
  unfold ScatterDims.window
  rw [dif_pos hk]
  rfl

theorem scatter_mid_window2 : (midScatterDims B N E C wf).window (ix3 b e c) 2 = c.val := by
  have hk : (2 : Fin 3) ∈ (midScatterDims B N E C wf).sKept := by
    simp [ScatterDims.sKept, Shape.kept, List.mem_filter, List.mem_finRange]
  unfold ScatterDims.window
  rw [dif_pos hk]
  rfl

/-- Update (b, e, c) lands on operand element (b', k, c') exactly when b = b', c = c' and the scatter index
    idx[e, 0], read signed and not clamped, is k. -/
theorem scatter_mid_resultIdx_iff (b' : Fin B) (k : Fin N) (c' : Fin C) :
    (midScatterDims B N E C wf).resultIdx? (ix3 b e c) idx = some (ix3 b' k c') ↔
      b = b' ∧ (idx (ix2 e ⟨0, Nat.one_pos⟩)).toInt = (k.val : Int) ∧ c = c' := by
  have s0 := scatter_mid_start0 wf idx b e c
  have s1 := scatter_mid_start1 wf idx b e c
  have s2 := scatter_mid_start2 wf idx b e c
  have w0 := scatter_mid_window0 wf b e c
  have w1 := scatter_mid_window1 wf b e c
  have w2 := scatter_mid_window2 wf b e c
  unfold ScatterDims.resultIdx?
  constructor
  · intro h
    split at h
    · rename_i hall
      have hf := Option.some.inj h
      have e0 : ((midScatterDims B N E C wf).start (ix3 b e c) idx 0
          + (midScatterDims B N E C wf).window (ix3 b e c) 0).toNat = b'.val :=
        congrArg (fun f : (⟨3, ![B, N, C]⟩ : Shape).Idx => (f 0).val) hf
      have e1 : ((midScatterDims B N E C wf).start (ix3 b e c) idx 1
          + (midScatterDims B N E C wf).window (ix3 b e c) 1).toNat = k.val :=
        congrArg (fun f : (⟨3, ![B, N, C]⟩ : Shape).Idx => (f 1).val) hf
      have e2 : ((midScatterDims B N E C wf).start (ix3 b e c) idx 2
          + (midScatterDims B N E C wf).window (ix3 b e c) 2).toNat = c'.val :=
        congrArg (fun f : (⟨3, ![B, N, C]⟩ : Shape).Idx => (f 2).val) hf
      have n1 := (hall 1).1
      rw [s0, w0] at e0
      rw [s1, w1] at e1 n1
      rw [s2, w2] at e2
      refine ⟨Fin.ext (by omega), by omega, Fin.ext (by omega)⟩
    · exact absurd h (by simp)
  · rintro ⟨rfl, hk, rfl⟩
    have hb : b.val < B := b.isLt
    have hkN : k.val < N := k.isLt
    have hc : c.val < C := c.isLt
    have hall : ∀ a, 0 ≤ (midScatterDims B N E C wf).start (ix3 b e c) idx a
          + (midScatterDims B N E C wf).window (ix3 b e c) a
        ∧ (midScatterDims B N E C wf).start (ix3 b e c) idx a
          + (midScatterDims B N E C wf).window (ix3 b e c) a < (⟨3, ![B, N, C]⟩ : Shape).size a := by
      intro a
      match a with
      | ⟨0, _⟩ =>
        show 0 ≤ (midScatterDims B N E C wf).start (ix3 b e c) idx 0 + (midScatterDims B N E C wf).window (ix3 b e c) 0
          ∧ (midScatterDims B N E C wf).start (ix3 b e c) idx 0 + (midScatterDims B N E C wf).window (ix3 b e c) 0 < (B : Int)
        rw [s0, w0]; omega
      | ⟨1, _⟩ =>
        show 0 ≤ (midScatterDims B N E C wf).start (ix3 b e c) idx 1 + (midScatterDims B N E C wf).window (ix3 b e c) 1
          ∧ (midScatterDims B N E C wf).start (ix3 b e c) idx 1 + (midScatterDims B N E C wf).window (ix3 b e c) 1 < (N : Int)
        rw [s1, w1]; omega
      | ⟨2, _⟩ =>
        show 0 ≤ (midScatterDims B N E C wf).start (ix3 b e c) idx 2 + (midScatterDims B N E C wf).window (ix3 b e c) 2
          ∧ (midScatterDims B N E C wf).start (ix3 b e c) idx 2 + (midScatterDims B N E C wf).window (ix3 b e c) 2 < (C : Int)
        rw [s2, w2]; omega
    rw [dif_pos hall]
    refine congrArg some (funext fun a => Fin.ext ?_)
    match a with
    | ⟨0, _⟩ =>
      show ((midScatterDims B N E C wf).start (ix3 b e c) idx 0 + (midScatterDims B N E C wf).window (ix3 b e c) 0).toNat = b.val
      rw [s0, w0]; omega
    | ⟨1, _⟩ =>
      show ((midScatterDims B N E C wf).start (ix3 b e c) idx 1 + (midScatterDims B N E C wf).window (ix3 b e c) 1).toNat = k.val
      rw [s1, w1]; omega
    | ⟨2, _⟩ =>
      show ((midScatterDims B N E C wf).start (ix3 b e c) idx 2 + (midScatterDims B N E C wf).window (ix3 b e c) 2).toNat = c.val
      rw [s2, w2]; omega

/-- The accumulating scatter over the extended reals at (b, k, c): the operand there plus the updates (b, e, c)
    over the positions e whose scatter index is k. -/
theorem hostScatterAdd_mid_apply (x : (⟨3, ![B, N, C]⟩ : Shape).Idx → EReal)
    (upd : (⟨3, ![B, E, C]⟩ : Shape).Idx → EReal) (k : Fin N) :
    Ideal.hostScatterAdd (midScatterDims B N E C wf) x idx upd (ix3 b k c) =
      x (ix3 b k c) + ∑ e' ∈ Finset.univ.filter
        (fun e' : Fin E => (idx (ix2 e' ⟨0, Nat.one_pos⟩)).toInt = (k.val : Int)), upd (ix3 b e' c) := by
  unfold Ideal.hostScatterAdd
  refine congrArg (x (ix3 b k c) + ·) (Eq.symm ?_)
  refine Finset.sum_nbij (fun e' => ix3 b e' c) ?_ ?_ ?_ (fun _ _ => rfl)
  · intro e' he
    rw [Finset.mem_filter] at he ⊢
    exact ⟨Finset.mem_univ _, (scatter_mid_resultIdx_iff wf idx b e' c b k c).mpr ⟨rfl, he.2, rfl⟩⟩
  · intro e₁ _ e₂ _ h
    exact congrFun h (1 : Fin 3)
  · intro j hj
    obtain ⟨b0, e0, c0, rfl⟩ : ∃ (b0 : Fin B) (e0 : Fin E) (c0 : Fin C), j = ix3 b0 e0 c0 :=
      ⟨j 0, j 1, j 2, eq_ix3 j⟩
    have hj' := (Finset.mem_filter.mp (Finset.mem_coe.mp hj)).2
    obtain ⟨h0, h1, h2⟩ := (scatter_mid_resultIdx_iff wf idx b0 e0 c0 b k c).mp hj'
    refine ⟨e0, Finset.mem_coe.mpr (Finset.mem_filter.mpr ⟨Finset.mem_univ _, h1⟩), ?_⟩
    show ix3 b e0 c = ix3 b0 e0 c0
    rw [← h0, ← h2]

end ScatterMid

/-! ## One position of the middle axis, through all of the other two -/

section Slab

/-- The rectangle at offsets (0, k, 0) of sizes (A, 1, C) in [A, N, C] places its own index (i, ., j) at
    (i, k, j). -/
theorem unit_slab_idx {A N C : Nat} (k : Nat)
    (inb : ∀ a, (![0, k, 0] : Fin 3 → Nat) a + (![A, 1, C] : Fin 3 → Nat) a ≤ (⟨3, ![A, N, C]⟩ : Shape).size a)
    (i : Fin A) (u : Fin 1) (j : Fin C) :
    (Rect.unit (s := ⟨3, ![A, N, C]⟩) ![0, k, 0] ![A, 1, C] inb).idx (ix3 i u j) =
      ix3 i ⟨k, Nat.lt_of_succ_le (inb 1)⟩ j := by
  funext a; refine Fin.ext ?_
  have hu : u.val = 0 := by omega
  match a with
  | ⟨0, _⟩ => show 0 + 1 * i.val = i.val; omega
  | ⟨1, _⟩ => show k + 1 * u.val = k; omega
  | ⟨2, _⟩ => show 0 + 1 * j.val = j.val; omega

end Slab

/-! ## The unit middle axis dropped or added by a shape cast -/

section Casts
variable {α : Type}

/-- An [a, 1, b] array cast to [a, b] reads, at (i, j), the operand at (i, 0, j). -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  Idealize.ShloMosaic.shapeCast_apply x h _ _ (by
    rw [Shape.rowMajor_val_three, Shape.rowMajor_val_two]
    show (i.val * 1 + 0) * b + j.val = i.val * b + j.val
    rw [Nat.mul_one, Nat.add_zero])

/-- An [a, b] array cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  Idealize.ShloMosaic.shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Casts

end Idealize.ShloMosaic.ValueIdx

end
-- ==== Proof.KernelBlock.lean ====
import proofs.«139308_j12713103196326_2_alg».proof.Proof.FrameIdealP
import proofs.«139308_j12713103196326_2_alg».proof.Proof.TableBodyPieces
import proofs.«139308_j12713103196326_2_alg».proof.Proof.Spec
import proofs.«139308_j12713103196326_2_alg».proof.Proof.LibMidAxis

/-!
# What one grid point leaves in the output block

At a grid point the kernel body reads two input blocks x0, x1 of shape [250, 16, 64] (250 batch entries) and
makes 99 stores into the output block [250, 99, 64], one per slot k: store k writes, through the rectangle that is
slot k over all batch entries and channels, the sum of slot k's products, each product row r1 of x0 times row r2
of x1 times its coefficient, every row loaded through the rectangle that is that row over all batch entries and
channels. So each store's value, at its own index (b, ., c), is the tensor product of the two blocks at (b, k, c):
the 99 stores are the 99 slabs of one function of the block index, and since they cover the block the block ends
holding that function.
-/

set_option maxRecDepth 16384

noncomputable section

namespace Cert.KernelIdeal.Block

open Cert.KernelIdeal Cert.KernelIdeal.Gen Cert.KernelIdeal.GenP Idealize.ShloMosaic Idealize.ShloMosaic.ValueIdx Cert.TP

/-- The rectangle of row k of an input block places its own index (b, ., c) at (b, k, c). -/
theorem row_idx (k : Nat) (inb : ∀ a, (![0, k, 0] : Fin 3 → Nat) a + S250x1x64.size a ≤ S250x16x64.size a)
    (b : Fin 250) (z : Fin 1) (c : Fin 64) :
    (Rect.unit (s := S250x16x64) ![0, k, 0] S250x1x64.size inb).idx (ix3 b z c) =
      ix3 b ⟨k, Nat.lt_of_succ_le (inb 1)⟩ c :=
  unit_slab_idx k inb b z c

/-- The rectangle of slot k of the output block places its own index (b, ., c) at (b, k, c). -/
theorem slot_emb (k : Nat) (inb : ∀ a, (![0, k, 0] : Fin 3 → Nat) a + S250x1x64.size a ≤ S250x99x64.size a)
    (b : Fin 250) (z : Fin 1) (c : Fin 64) :
    (Rect.unit (s := S250x99x64) ![0, k, 0] S250x1x64.size inb).emb (ix3 b z c) =
      ix3 b ⟨k, Nat.lt_of_succ_le (inb 1)⟩ c :=
  unit_slab_idx k inb b z c

/-- One store is its slot's slab of the tensor product: split the store's index into (b, ., c), unfold the body's
    arithmetic, read every operation at the index (the casts that drop and add the unit middle axis, the pointwise
    sums and products, the splat coefficient, each load through its row's rectangle), and compare with the slot's
    sum of products term by term. -/
macro "store_is_slab" : tactic => `(tactic| (
  intro x
  obtain ⟨b, z, c, hx⟩ : ∃ (b : Fin 250) (z : Fin 1) (c : Fin 64), x = ix3 b z c := ⟨x 0, x 1, x 2, eq_ix3 x⟩
  subst hx
  unfold_body_pieces
  simp only [shapeCast_ab_a1b_apply, shapeCast_a1b_ab_apply, mulf_apply, addf_apply, broadcast_apply, View.ld,
    row_idx, slot_emb, tensor_ix3]
  rfl))

set_option maxHeartbeats 4000000 in
/-- After the body the output block holds the tensor product of the two input blocks. -/
theorem out_block (x0 x1 : Vec Ideal S250x16x64 .f32) (y : S250x99x64.Idx) : out0_2 x0 x1 y = tensor x0 x1 y := by
  unfold out0_2
  refine View.canon_apply_of_pieces (Val := Elt Ideal) (S := S250x99x64) (e := .f32) (tensor x0 x1) _ ?_ y (cover0_2 ..)
  repeat' (first | exact fun _ h => absurd h List.not_mem_nil | refine List.forall_mem_cons.2 ⟨?_, ?_⟩)
  all_goals store_is_slab

end Cert.KernelIdeal.Block

end
-- ==== Proof.KernelWhole.lean ====
import proofs.«139308_j12713103196326_2_alg».proof.Proof.KernelBlock
import Idealize.ShloMosaic.Lib.Pipeline.Value

/-!
# From the blocks to the whole array

The grid has 40 points; point t stages rows 250 t to 250 t + 249 of both arguments (all 16 rows of the middle axis,
all 64 channels) and writes back rows 250 t to 250 t + 249 of the result (all 99 slots, all channels). What a point
leaves in its output block is the tensor product of its two input blocks, and the tensor product at batch entry b
only reads batch entry b of the arguments, so what point t writes back is block t of the tensor product of the two
whole arguments. The 40 blocks cover the result array, which therefore ends holding that tensor product.
-/

set_option maxRecDepth 16384

noncomputable section

namespace Cert.KernelIdeal.Whole

open Cert.KernelIdeal Cert.KernelIdeal.Gen Cert.KernelIdeal.GenP Idealize.ShloMosaic Idealize.ShloMosaic.TcCoe
open Idealize.SL.Sem Idealize.ShloMosaic.ValueIdx Cert.TP
open Idealize.ShloMosaic.Pipeline (Dat)

variable (m : (ℓ : Loc nD τ sig) → Buf (Elt Ideal) ℓ) (ρ : Dev nD → PrngReg)

/-- The printed index maps over the 40 grid points: every window's block index is the point along the batch axis and
    zero along the other two. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The result array the kernel should end with: the tensor product of the two arguments as launched. -/
abbrev whole (c : Dev nD) : S10000x99x64.Idx → Elt Ideal .f32 :=
  tensor (B := 10000) (C := 64) (m ((c : Thread nD τ).loc main_arg0) : S10000x16x64.Idx → Elt Ideal .f32)
    (m ((c : Thread nD τ).loc main_arg1) : S10000x16x64.Idx → Elt Ideal .f32)

/-- The first input block at point t, at (b, r, ch), is the first argument at (250 t + b, r, ch). -/
theorem iblk0_apply (c : Dev nD) (t : Fin cfg0.N) (b : Fin 250) (r : Fin 16) (ch : Fin 64) (B : Fin 10000)
    (hB : B.val = 250 * t.val + b.val) :
    (iblk m c 0 t : Vec Ideal S250x16x64 .f32) (ix3 b r ch) =
      (m ((c : Thread nD τ).loc main_arg0) : S10000x16x64.Idx → Elt Ideal .f32) (ix3 B r ch) := by
  obtain ⟨e0, e1, e2, -⟩ := idx_facts t
  unfold iblk
  rw [View.read_apply]
  show V m c main_arg0 _ = m (c.tc.loc main_arg0) _
  unfold V
  congr 1
  funext a
  apply Fin.ext
  match a with
  | ⟨0, _⟩ => show win0_0.index t 0 * 250 + 1 * b.val = B.val; rw [e0, hB]; omega
  | ⟨1, _⟩ => show win0_0.index t 1 * 16 + 1 * r.val = r.val; rw [e1]; omega
  | ⟨2, _⟩ => show win0_0.index t 2 * 64 + 1 * ch.val = ch.val; rw [e2]; omega

/-- The second input block at point t, at (b, r, ch), is the second argument at (250 t + b, r, ch). -/
theorem iblk1_apply (c : Dev nD) (t : Fin cfg0.N) (b : Fin 250) (r : Fin 16) (ch : Fin 64) (B : Fin 10000)
    (hB : B.val = 250 * t.val + b.val) :
    (iblk m c 1 t : Vec Ideal S250x16x64 .f32) (ix3 b r ch) =
      (m ((c : Thread nD τ).loc main_arg1) : S10000x16x64.Idx → Elt Ideal .f32) (ix3 B r ch) := by
  obtain ⟨-, -, -, e0, e1, e2, -⟩ := idx_facts t
  unfold iblk
  rw [View.read_apply]
  show V m c main_arg1 _ = m (c.tc.loc main_arg1) _
  unfold V
  congr 1
  funext a
  apply Fin.ext
  match a with
  | ⟨0, _⟩ => show win0_1.index t 0 * 250 + 1 * b.val = B.val; rw [e0, hB]; omega
  | ⟨1, _⟩ => show win0_1.index t 1 * 16 + 1 * r.val = r.val; rw [e1]; omega
  | ⟨2, _⟩ => show win0_1.index t 2 * 64 + 1 * ch.val = ch.val; rw [e2]; omega

/-- What point t writes back is block t of the tensor product of the arguments. -/
theorem flushed_eq (c : Dev nD) (t : Fin cfg0.N) :
    (dats m 0 c).flushed 2 t = ((cfg0.win 2).blk t).view.read (Elt Ideal) (whole m c) := by
  have ht : t.val < 40 := Nat.lt_of_lt_of_eq t.isLt N_0
  obtain ⟨-, -, -, -, -, -, e6, e7, e8⟩ := idx_facts t
  show (cfg0.win 2).cut (grid0.coords t) ((dats m 0 c).after 2 t) = _
  rw [after0_2]
  funext j
  show out0_2 (iblk m c 0 t) (iblk m c 1 t) j = whole m c (((cfg0.win 2).blk t).view.emb j)
  refine (Block.out_block (iblk m c 0 t) (iblk m c 1 t) j).trans ?_
  obtain ⟨b, k, ch, rfl⟩ : ∃ (b : Fin 250) (k : Fin 99) (ch : Fin 64), j = ix3 b k ch := ⟨j 0, j 1, j 2, eq_ix3 j⟩
  have he : ((cfg0.win 2).blk t).view.emb (ix3 b k ch) = ix3 (⟨250 * t.val + b.val, by omega⟩ : Fin 10000) k ch := by
    funext a; apply Fin.ext
    match a with
    | ⟨0, _⟩ => show win0_2.index t 0 * 250 + 1 * b.val = 250 * t.val + b.val; rw [e6]; omega
    | ⟨1, _⟩ => show win0_2.index t 1 * 99 + 1 * k.val = k.val; rw [e7]; omega
    | ⟨2, _⟩ => show win0_2.index t 2 * 64 + 1 * ch.val = ch.val; rw [e8]; omega
  rw [he]
  show slot _ _ k.val = slot _ _ k.val
  exact congrArg₂ (fun X Y => slot X Y k.val)
    (funext fun r => iblk0_apply m c t b r ch _ rfl) (funext fun r => iblk1_apply m c t b r ch _ rfl)

/-- An index of the result array is in point t's block iff each coordinate is in the block's range on its axis. -/
theorem mem_blk (t : Fin cfg0.N) (i : S10000x99x64.Idx) :
    i ∈ ((cfg0.win 2).blk t).view.set ↔ ∀ a : Fin 3, win0_2.index t a * S250x99x64.size a ≤ (i a).val
      ∧ (i a).val < win0_2.index t a * S250x99x64.size a + S250x99x64.size a := by
  show i ∈ ((View.whole main_v0).slice (win0_2.rect t)).set ↔ _
  rw [View.set_slice_whole, Rect.mem_set_unit]
  exact Iff.rfl

/-- Every index of the result array is in the block of the point its batch entry falls in. -/
theorem cover (i : S10000x99x64.Idx) :
    ∃ t : Fin cfg0.N, (cfg0.win 2).flush t = true ∧ i ∈ ((cfg0.win 2).blk t).view.set := by
  have h0 : (i 0).val < 10000 := (i 0).isLt
  have h1 : (i 1).val < 99 := (i 1).isLt
  have h2 : (i 2).val < 64 := (i 2).isLt
  have hN : cfg0.N = 40 := N_0
  have hq : (i 0).val / 250 < cfg0.N := by rw [hN]; omega
  obtain ⟨-, -, -, -, -, -, e6, e7, e8⟩ := idx_facts ⟨(i 0).val / 250, hq⟩
  refine ⟨⟨(i 0).val / 250, hq⟩, flush0_2 _, ?_⟩
  rw [mem_blk]
  intro a
  match a with
  | ⟨0, _⟩ =>
    show win0_2.index ⟨(i 0).val / 250, hq⟩ 0 * 250 ≤ (i 0).val
      ∧ (i 0).val < win0_2.index ⟨(i 0).val / 250, hq⟩ 0 * 250 + 250
    rw [e6]; show (i 0).val / 250 * 250 ≤ (i 0).val ∧ (i 0).val < (i 0).val / 250 * 250 + 250; omega
  | ⟨1, _⟩ =>
    show win0_2.index ⟨(i 0).val / 250, hq⟩ 1 * 99 ≤ (i 1).val
      ∧ (i 1).val < win0_2.index ⟨(i 0).val / 250, hq⟩ 1 * 99 + 99
    rw [e7]; omega
  | ⟨2, _⟩ =>
    show win0_2.index ⟨(i 0).val / 250, hq⟩ 2 * 64 ≤ (i 2).val
      ∧ (i 2).val < win0_2.index ⟨(i 0).val / 250, hq⟩ 2 * 64 + 64
    rw [e8]; omega

/-- The result array after the run is the tensor product of the arguments. -/
theorem final (c : Dev nD) : (dats m 0 c).arrAt 2 cfg0.N = whole m c :=
  (dats m 0 c).arrAt_eq_of_cover 2 (whole m c) (fun t _ => flushed_eq m c t) cover

/-- The kernel's run, read: the frame run leaves the result array at what the 40 write-backs compose to, which is the
    tensor product of the arguments, and each argument array, staged and never written back, as launched. -/
theorem run : θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Whole

end
-- ==== Proof.TableRefOps.lean ====
import proofs.«139308_j12713103196326_2_alg».proof.Proof.Gen.ReferenceIdeal
import Idealize.ShloMosaic.Lib.StableHlo.Run

/-! The reference's @main as the list of its 31 host operations, in the printed order, and that each names only
    TensorCore buffers. A table: restated from the printed program line by line. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 31 operations, in order. -/
abbrev ops : List (HloOp τ sig (Elt F)) :=
  [ nullary main_c (fun i => lit0 (S353.rowMajor i)),
    nullary main_c_0 (constantI S353 1 0#1),
    nullary main_cst (fun i => FloatOps.ofBits .f32 (lit1 (S353.rowMajor i))),
    nullary main_c_1 (fun i => lit2 (S353.rowMajor i)),
    nullary main_c_2 (constantI S353 1 0#1),
    nullary main_c_3 (fun i => lit3 (S353.rowMajor i)),
    nullary main_c_4 (constantI S353 1 0#1),
    nullary main_c_5 (constantI S_ 32 16#32),
    unary main_c_5 main_v0 (broadcastInDim S353 ![] bcast_S_S353 : (⟨S_, .i32⟩ : BufTy).Contents (Elt F) → (⟨S353, .i32⟩ : BufTy).Contents (Elt F)),
    binary main_c main_v0 main_v1 (addi : (⟨S353, .i32⟩ : BufTy).Contents (Elt F) → (⟨S353, .i32⟩ : BufTy).Contents (Elt F) → (⟨S353, .i32⟩ : BufTy).Contents (Elt F)),
    ternary main_c_0 main_v1 main_c main_v2 (select : (⟨S353, .i1⟩ : BufTy).Contents (Elt F) → (⟨S353, .i32⟩ : BufTy).Contents (Elt F) → (⟨S353, .i32⟩ : BufTy).Contents (Elt F) → (⟨S353, .i32⟩ : BufTy).Contents (Elt F)),
    unary main_v2 main_v3 (broadcastInDim S353x1 ![0] bcast_S353_S353x1_0 : (⟨S353, .i32⟩ : BufTy).Contents (Elt F) → (⟨S353x1, .i32⟩ : BufTy).Contents (Elt F)),
    binary main_arg0 main_v3 main_v4 ((fun x i => Host.gather gather_S10000x16x64_S353x1_S10000x353x64_02_1_n_n_1_1_10000164 x i) : (⟨S10000x16x64, .f32⟩ : BufTy).Contents (Elt F) → (⟨S353x1, .i32⟩ : BufTy).Contents (Elt F) → (⟨S10000x353x64, .f32⟩ : BufTy).Contents (Elt F)),
    unary main_cst main_v5 (broadcastInDim S1x353x1 ![1] bcast_S353_S1x353x1_1 : (⟨S353, .f32⟩ : BufTy).Contents (Elt F) → (⟨S1x353x1, .f32⟩ : BufTy).Contents (Elt F)),
    unary main_v5 main_v6 (broadcastInDim S10000x353x64 ![0, 1, 2] bcast_S1x353x1_S10000x353x64_0_1_2 : (⟨S1x353x1, .f32⟩ : BufTy).Contents (Elt F) → (⟨S10000x353x64, .f32⟩ : BufTy).Contents (Elt F)),
    binary main_v4 main_v6 main_v7 (mulf : (⟨S10000x353x64, .f32⟩ : BufTy).Contents (Elt F) → (⟨S10000x353x64, .f32⟩ : BufTy).Contents (Elt F) → (⟨S10000x353x64, .f32⟩ : BufTy).Contents (Elt F)),
    nullary main_c_6 (constantI S_ 32 16#32),
    unary main_c_6 main_v8 (broadcastInDim S353 ![] bcast_S_S353 : (⟨S_, .i32⟩ : BufTy).Contents (Elt F) → (⟨S353, .i32⟩ : BufTy).Contents (Elt F)),
    binary main_c_1 main_v8 main_v9 (addi : (⟨S353, .i32⟩ : BufTy).Contents (Elt F) → (⟨S353, .i32⟩ : BufTy).Contents (Elt F) → (⟨S353, .i32⟩ : BufTy).Contents (Elt F)),
    ternary main_c_2 main_v9 main_c_1 main_v10 (select : (⟨S353, .i1⟩ : BufTy).Contents (Elt F) → (⟨S353, .i32⟩ : BufTy).Contents (Elt F) → (⟨S353, .i32⟩ : BufTy).Contents (Elt F) → (⟨S353, .i32⟩ : BufTy).Contents (Elt F)),
    unary main_v10 main_v11 (broadcastInDim S353x1 ![0] bcast_S353_S353x1_0 : (⟨S353, .i32⟩ : BufTy).Contents (Elt F) → (⟨S353x1, .i32⟩ : BufTy).Contents (Elt F)),
    binary main_arg1 main_v11 main_v12 ((fun x i => Host.gather gather_S10000x16x64_S353x1_S10000x353x64_02_1_n_n_1_1_10000164 x i) : (⟨S10000x16x64, .f32⟩ : BufTy).Contents (Elt F) → (⟨S353x1, .i32⟩ : BufTy).Contents (Elt F) → (⟨S10000x353x64, .f32⟩ : BufTy).Contents (Elt F)),
    binary main_v7 main_v12 main_v13 (mulf : (⟨S10000x353x64, .f32⟩ : BufTy).Contents (Elt F) → (⟨S10000x353x64, .f32⟩ : BufTy).Contents (Elt F) → (⟨S10000x353x64, .f32⟩ : BufTy).Contents (Elt F)),
    nullary main_cst_7 (constant S_ .f32 0x00000000#32),
    unary main_cst_7 main_v14 (broadcastInDim S10000x99x64 ![] bcast_S_S10000x99x64 : (⟨S_, .f32⟩ : BufTy).Contents (Elt F) → (⟨S10000x99x64, .f32⟩ : BufTy).Contents (Elt F)),
    nullary main_c_8 (constantI S_ 32 99#32),
    unary main_c_8 main_v15 (broadcastInDim S353 ![] bcast_S_S353 : (⟨S_, .i32⟩ : BufTy).Contents (Elt F) → (⟨S353, .i32⟩ : BufTy).Contents (Elt F)),
    binary main_c_3 main_v15 main_v16 (addi : (⟨S353, .i32⟩ : BufTy).Contents (Elt F) → (⟨S353, .i32⟩ : BufTy).Contents (Elt F) → (⟨S353, .i32⟩ : BufTy).Contents (Elt F)),
    ternary main_c_4 main_v16 main_c_3 main_v17 (select : (⟨S353, .i1⟩ : BufTy).Contents (Elt F) → (⟨S353, .i32⟩ : BufTy).Contents (Elt F) → (⟨S353, .i32⟩ : BufTy).Contents (Elt F) → (⟨S353, .i32⟩ : BufTy).Contents (Elt F)),
    unary main_v17 main_v18 (broadcastInDim S353x1 ![0] bcast_S353_S353x1_0 : (⟨S353, .i32⟩ : BufTy).Contents (Elt F) → (⟨S353x1, .i32⟩ : BufTy).Contents (Elt F)),
    ternary main_v14 main_v18 main_v13 main_v19 ((fun x i u => Host.scatterAdd scatter_S10000x99x64_S353x1_S10000x353x64_02_1_1_1 x i u) : (⟨S10000x99x64, .f32⟩ : BufTy).Contents (Elt F) → (⟨S353x1, .i32⟩ : BufTy).Contents (Elt F) → (⟨S10000x353x64, .f32⟩ : BufTy).Contents (Elt F) → (⟨S10000x99x64, .f32⟩ : BufTy).Contents (Elt F)) ]

theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., ternary_bufs_sub .., unary_bufs_sub .., ternary_bufs_sub ..⟩

end Cert.ReferenceIdeal.RefRun

end
-- ==== Proof.RefRun.lean ====
import proofs.«139308_j12713103196326_2_alg».proof.Proof.TableRefOps

/-!
# The reference's run

The reference is a straight line of 31 host operations. Run from any memory, every weakly fair execution ends with
the result buffer holding one composed function of the two argument arrays, and the arguments unchanged. The
composed function is named here piece by piece: the three position columns (each a table of 353 positions passed
through a select on an all-false mask, which keeps the table as it is, and laid out as a [353, 1] column), the
coefficients broadcast over batch and channel, and the result: zeros plus, scattered along the middle axis, the
products of the gathered rows of x, the coefficients and the gathered rows of y.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A table of positions as the program prepares it: where the mask holds, the table moved up by the extent (the
    wrap-around of a negative position); elsewhere the table itself; as a column. The mask is all false. -/
def posOf (lit : Fin 353 → BitVec 32) (ext : BitVec 32) : (⟨S353x1, .i32⟩ : BufTy).Contents (Elt F) :=
  broadcastInDim S353x1 ![0] bcast_S353_S353x1_0
    (select (constantI S353 1 0#1)
      (addi (fun i => lit (S353.rowMajor i)) (broadcastInDim S353 ![] bcast_S_S353 (constantI S_ 32 ext)))
      (fun i => lit (S353.rowMajor i)) : (⟨S353, .i32⟩ : BufTy).Contents (Elt F))

/-- The 353 coefficients, one per product, the same for every batch entry and channel. -/
def coef : (⟨S10000x353x64, .f32⟩ : BufTy).Contents (Elt F) :=
  broadcastInDim S10000x353x64 ![0, 1, 2] bcast_S1x353x1_S10000x353x64_0_1_2
    (broadcastInDim S1x353x1 ![1] bcast_S353_S1x353x1_1
      (fun i => FloatOps.ofBits .f32 (lit1 (S353.rowMajor i)) : (⟨S353, .f32⟩ : BufTy).Contents (Elt F)))

/-- What the reference computes of its two arguments. -/
def result (a0 a1 : (⟨S10000x16x64, .f32⟩ : BufTy).Contents (Elt F)) : (⟨S10000x99x64, .f32⟩ : BufTy).Contents (Elt F) :=
  Host.scatterAdd scatter_S10000x99x64_S353x1_S10000x353x64_02_1_1_1
    (broadcastInDim S10000x99x64 ![] bcast_S_S10000x99x64 (constant S_ .f32 0x00000000#32))
    (posOf (F := F) lit3 99#32)
    (mulf (mulf (Host.gather gather_S10000x16x64_S353x1_S10000x353x64_02_1_n_n_1_1_10000164 a0 (posOf (F := F) lit0 16#32))
        (coef (F := F)))
      (Host.gather gather_S10000x16x64_S353x1_S10000x353x64_02_1_n_n_1_1_10000164 a1 (posOf (F := F) lit2 16#32)))

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxHeartbeats 1000000 in
/-- On every device, for any float values, from any memory with zero counters: every weakly fair execution of
    the reference terminates with its result buffer at the composed function of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) =
        result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v19).trans (by after_results_simp; rfl),
      (h c main_arg0).trans (by after_results_simp),
      (h c main_arg1).trans (by after_results_simp)⟩)
    (run_seq scopedRefs_eq scopedSems_eq defs main (fun _ => ops) main_eq (fun _ => ops_sub) m ρ)

end Cert.ReferenceIdeal.RefRun

end
-- ==== Proof.RefValue.lean ====
import proofs.«139308_j12713103196326_2_alg».proof.Proof.RefRun
import proofs.«139308_j12713103196326_2_alg».proof.Proof.Spec
import proofs.«139308_j12713103196326_2_alg».proof.Proof.LibMidAxis
import Idealize.ShloMosaic.Lib.IdealHost
import Idealize.ShloMosaic.PureOps.Ideal.Laws

/-!
# The reference's result, entry by entry

Over the extended reals the reference's result at (b, k, c) is zero plus the sum, over the products n whose slot
is k, of x[b, r1 n, c] * g n * y[b, r2 n, c]: the gather along the middle axis reads row r1 n (r2 n) of x (y),
the coefficient array reads g n whatever b and c, and the accumulating scatter adds into slot k exactly the
products whose slot entry is k. That is slot k of the tensor product (the specification's ref_slot).
-/

noncomputable section

namespace Cert.ReferenceIdeal.RefValue

open Cert.ReferenceIdeal Cert.ReferenceIdeal.Gen Cert.ReferenceIdeal.RefRun Idealize.ShloMosaic Idealize.ShloMosaic.ValueIdx
open Cert.TP

/-- A position of a table of 353 entries, as a rank-1 index, has itself as its row-major rank. -/
theorem rowMajor_ix1 (e : Fin 353) : S353.rowMajor (ix1 e) = e := Fin.ext (Shape.rowMajor_val_one _)

/-- Entry e of a prepared position column is entry e of the table: the mask of the select is all false. -/
theorem posOf_apply (lit : Fin 353 → BitVec 32) (ext : BitVec 32) (e : Fin 353) :
    posOf (F := Ideal) lit ext (ix2 e ⟨0, Nat.one_pos⟩) = lit e := by
  unfold posOf
  rw [Idealize.ShloMosaic.broadcastInDim_apply _ _ _ _ (ix1 e) (fun a => by match a with | ⟨0, _⟩ => rfl)]
  rw [select_apply]
  show Scalar.select 0#1 _ (lit (S353.rowMajor (ix1 e))) = lit e
  rw [select_zero, rowMajor_ix1]

/-- The coefficient array at (b, e, c) is coefficient e. -/
theorem coef_apply (b : Fin 10000) (e : Fin 353) (c : Fin 64) :
    coef (F := Ideal) (ix3 b e c) = Ideal.ofBits .f32 (lit1 e) := by
  unfold coef
  rw [Idealize.ShloMosaic.broadcastInDim_apply _ _ _ _ (ix3 (0 : Fin 1) e (0 : Fin 1))
    (fun a => by match a with | ⟨0, _⟩ => rfl | ⟨1, _⟩ => rfl | ⟨2, _⟩ => rfl)]
  rw [Idealize.ShloMosaic.broadcastInDim_apply _ _ _ _ (ix1 e) (fun a => by match a with | ⟨0, _⟩ => rfl)]
  show Ideal.ofBits .f32 (lit1 (S353.rowMajor (ix1 e))) = _
  rw [rowMajor_ix1]

/-- Product e at (b, c): row r1 e of x times coefficient e times row r2 e of y. -/
theorem product_apply (a0 a1 : FVec Ideal S10000x16x64 .f32) (b : Fin 10000) (e : Fin 353) (c : Fin 64) :
    mulf (mulf (Host.gather gather_S10000x16x64_S353x1_S10000x353x64_02_1_n_n_1_1_10000164 a0 (posOf (F := Ideal) lit0 16#32))
        (coef (F := Ideal)))
      (Host.gather gather_S10000x16x64_S353x1_S10000x353x64_02_1_n_n_1_1_10000164 a1 (posOf (F := Ideal) lit2 16#32)) (ix3 b e c)
    = a0 (ix3 b (row1 e) c) * Ideal.ofBits .f32 (lit1 e) * a1 (ix3 b (row2 e) c) := by
  show Host.gather (midGatherDims 10000 16 353 64 gather_S10000x16x64_S353x1_S10000x353x64_02_1_n_n_1_1_10000164_wf) a0
        (posOf (F := Ideal) lit0 16#32) (ix3 b e c) * coef (F := Ideal) (ix3 b e c)
      * Host.gather (midGatherDims 10000 16 353 64 gather_S10000x16x64_S353x1_S10000x353x64_02_1_n_n_1_1_10000164_wf) a1
        (posOf (F := Ideal) lit2 16#32) (ix3 b e c) = _
  rw [gather_mid_apply (by decide), gather_mid_apply (by decide), coef_apply]
  simp only [posOf_apply]
  rfl

/-- The reference's result at (b, k, c) is the tensor product there. -/
theorem result_apply (a0 a1 : FVec Ideal S10000x16x64 .f32) (b : Fin 10000) (k : Fin 99) (c : Fin 64) :
    result (F := Ideal) a0 a1 (ix3 b k c) = tensorAt a0 a1 b k c := by
  show Ideal.hostScatterAdd (midScatterDims 10000 99 353 64 scatter_S10000x99x64_S353x1_S10000x353x64_02_1_1_1_wf)
      (broadcastInDim S10000x99x64 ![] bcast_S_S10000x99x64 (constant (F := Ideal) S_ .f32 0x00000000#32))
      (posOf (F := Ideal) lit3 99#32)
      (mulf (mulf (Host.gather gather_S10000x16x64_S353x1_S10000x353x64_02_1_n_n_1_1_10000164 a0 (posOf (F := Ideal) lit0 16#32))
          (coef (F := Ideal)))
        (Host.gather gather_S10000x16x64_S353x1_S10000x353x64_02_1_n_n_1_1_10000164 a1 (posOf (F := Ideal) lit2 16#32)))
      (ix3 b k c) = _
  rw [hostScatterAdd_mid_apply, broadcastInDim_scalar_apply, constant_apply, Ideal.ofBits_zero_f32]
  simp only [posOf_apply]
  rw [Finset.sum_congr rfl (fun e _ => product_apply a0 a1 b e c)]
  exact ref_slot (fun m => a0 (ix3 b m c)) (fun m => a1 (ix3 b m c)) k

/-- The reference's result is the tensor product of its arguments. -/
theorem result_eq (a0 a1 : FVec Ideal S10000x16x64 .f32) : result (F := Ideal) a0 a1 = tensor a0 a1 := by
  funext i
  obtain ⟨b, k, c, rfl⟩ : ∃ (b : Fin 10000) (k : Fin 99) (c : Fin 64), i = ix3 b k c := ⟨i 0, i 1, i 2, eq_ix3 i⟩
  rw [result_apply, tensor_ix3]

end Cert.ReferenceIdeal.RefValue

end
-- ==== Proof.lean ====
/- The tensor product of two arrays x, y of shape [10000, 16, 64] along their middle axis, with fixed sparse
   coefficients: out[b, k, c] is the sum, over the products n that go to slot k (353 products into 99 slots), of
   x[b, r1 n, c] * y[b, r2 n, c] * g n. The kernel computes it block by block over 40 blocks of 250 batch entries,
   each slot spelt out as an explicit sum of its products; the reference gathers the rows of x and of y for all 353
   products, multiplies them with the coefficients, and scatter-adds each product into its slot of an array of
   zeros. Over the extended reals the two results are the same function of the arguments, entry by entry: the same
   products (the product commutes and associates), added into the same slots (the sum commutes and associates, and
   zero is neutral), with the same coefficient words on both sides. No law used fails at an infinity, so the
   precondition is never opened.
   The modules: Proof/Spec.lean (the slot sum and the tables' agreement), Proof/LibMidAxis.lean (gather, accumulating
   scatter, slabs and unit-axis casts along the middle axis of a rank-3 array), Proof/RefRun.lean and
   Proof/RefValue.lean (the reference's run, and its result entry by entry), Proof/KernelBlock.lean (what one grid
   point leaves in its output block), Proof/KernelWhole.lean (the 40 blocks assembled, and the kernel's run). -/
import proofs.«139308_j12713103196326_2_alg».proof.Defs
import proofs.«139308_j12713103196326_2_alg».proof.Proof.Gen.Kernel
import proofs.«139308_j12713103196326_2_alg».proof.Proof.Gen.KernelIdeal
import proofs.«139308_j12713103196326_2_alg».proof.Proof.Gen.ReferenceIdeal
import proofs.«139308_j12713103196326_2_alg».proof.Proof.Gen.Pre_finite_inputs
import proofs.«139308_j12713103196326_2_alg».proof.Proof.FrameBitsP
import proofs.«139308_j12713103196326_2_alg».proof.Proof.FrameIdealP
import proofs.«139308_j12713103196326_2_alg».proof.Proof.KernelWhole
import proofs.«139308_j12713103196326_2_alg».proof.Proof.RefValue
import Idealize.ShloMosaic.Adequacy
import Idealize.ShloMosaic.Init

noncomputable section

namespace Cert.Proof

open Idealize.ShloMosaic Idealize.SL.Sem

/-- The kernel as printed runs, faults nowhere and leaves its arguments unchanged. -/
theorem frame_k : Cert.frame_Kernel := fun m ρ _ => Cert.Kernel.GenP.frame m ρ

/-- So does the kernel read over the extended reals. -/
theorem frame_ki : Cert.frame_KernelIdeal := fun m ρ _ => Cert.KernelIdeal.GenP.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- No operation of the kernel was rewritten for the reading over the extended reals: nothing to preserve. -/
theorem preserves : Cert.preserves_Kernel_KernelIdeal := trivial

/-- From memories agreeing on the arguments both programs end with the tensor product of the arguments in their
    result arrays: the kernel by its 40 blocks, the reference by its gathers, products and scatter-add. -/
theorem algebraic : Cert.algebraic_KernelIdeal_ReferenceIdeal := by
  intro m ρ m' ρ' _ hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2, Cert.ReferenceIdeal.RefValue.result_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
